-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x256 : Shape := ⟨3, ![1024, 128, 256]⟩
abbrev S1024x128x128 : Shape := ⟨3, ![1024, 128, 128]⟩
abbrev S256x256 : Shape := ⟨2, ![256, 256]⟩
abbrev S256 : Shape := ⟨1, ![256]⟩
abbrev S256x512 : Shape := ⟨2, ![256, 512]⟩
abbrev S512 : Shape := ⟨1, ![512]⟩
abbrev S_ : Shape := ⟨0, ![]⟩

class Facts : Prop where
  bcast_S_S1024x128x256 : S_.BroadcastsInDim S1024x128x256 (![] : Fin 0 → Fin S1024x128x256.rank)
  reducesTo_S1024x128x256_S_d0_1_2 : S1024x128x256.ReducesTo [0, 1, 2] S_
  h_S_ : 0 < S_.numel
  bcast_S_S1024x128x128 : S_.BroadcastsInDim S1024x128x128 (![] : Fin 0 → Fin S1024x128x128.rank)
  reducesTo_S1024x128x128_S_d0_1_2 : S1024x128x128.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S256x256 .f32) (main_arg9 : FVec F S256 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256x512 .f32) (main_arg5 : FVec F S512 .f32) (main_arg6 : FVec F S256x512 .f32) (main_arg7 : FVec F S512 .f32) (main_arg8 : FVec F S256x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x128x256 .f32) (main_arg1 : FVec F S1024x128x128 .f32) (main_arg2 : FVec F S256x256 .f32) (main_arg3 : FVec F S256 .f32) (main_arg4 : FVec F S256x512 .f32) (main_arg5 : FVec F S512 .f32) (main_arg6 : FVec F S256x512 .f32) (main_arg7 : FVec F S512 .f32) (main_arg8 : FVec F S256x256 .f32) (main_arg9 : FVec F S256 .f32) : IVec S_ 1 :=
  let main_v0 : FVec F S1024x128x256 .f32 := Host.absf main_arg0
  let main_cst : FVec F S_ .f32 := constant S_ .f32 0x7F800000#32
  let main_v1 : FVec F S1024x128x256 .f32 := broadcastInDim S1024x128x256 ![] bcast_S_S1024x128x256 main_cst
  let main_v2 : IVec S1024x128x256 1 := cmpf .olt main_v0 main_v1
  let main_c : IVec S_ 1 := constantI S_ 1 1#1
  let main_v3 : IVec S_ 1 := (fun x v => Host.reduce IntOp.andi x v reducesTo_S1024x128x256_S_d0_1_2 h_S_) main_v2 main_c
  let main_v4 : FVec F S1024x128x128 .f32 := Host.absf main_arg1
  let main_cst_0 : FVec F S_ .f32 := constant S_ .f32 0x7F800000#32
  let main_v5 : FVec F S1024x128x128 .f32 := broadcastInDim S1024x128x128 ![] bcast_S_S1024x128x128 main_cst_0
  let main_v6 : IVec S1024x128x128 1 := cmpf .olt main_v4 main_v5
  let main_c_1 : IVec S_ 1 := constantI S_ 1 1#1
  let main_v7 : IVec S_ 1 := (fun x v => Host.reduce IntOp.andi x v reducesTo_S1024x128x128_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S1024x128x256 : Shape := ⟨3, ![1024, 128, 256]⟩
abbrev S1024x128x128 : Shape := ⟨3, ![1024, 128, 128]⟩
abbrev S256x256 : Shape := ⟨2, ![256, 256]⟩
abbrev S256 : Shape := ⟨1, ![256]⟩
abbrev S256x512 : Shape := ⟨2, ![256, 512]⟩
abbrev S512 : Shape := ⟨1, ![512]⟩
abbrev S16x128x256 : Shape := ⟨3, ![16, 128, 256]⟩
abbrev S16x128x128 : Shape := ⟨3, ![16, 128, 128]⟩
abbrev S2048x256 : Shape := ⟨2, ![2048, 256]⟩
abbrev S1x256 : Shape := ⟨2, ![1, 256]⟩
abbrev S2048x512 : Shape := ⟨2, ![2048, 512]⟩
abbrev S1x512 : Shape := ⟨2, ![1, 512]⟩
abbrev S16x128x512 : Shape := ⟨3, ![16, 128, 512]⟩
abbrev S16x128 : Shape := ⟨2, ![16, 128]⟩
abbrev S16x128x1 : Shape := ⟨3, ![16, 128, 1]⟩

abbrev nBuf : Space → Nat
  | .hbm => 12
  | .vmem => 16
  | .smem => 0
  | _ => 0

abbrev bufTy : (tb : Table) → Fin (tcTables nBuf tb) → BufTy
  | .hbm, ⟨0, _⟩ => ⟨S1024x128x256, .f32⟩
  | .hbm, ⟨1, _⟩ => ⟨S1024x128x128, .f32⟩
  | .hbm, ⟨2, _⟩ => ⟨S256x256, .f32⟩
  | .hbm, ⟨3, _⟩ => ⟨S256, .f32⟩
  | .hbm, ⟨4, _⟩ => ⟨S256x512, .f32⟩
  | .hbm, ⟨5, _⟩ => ⟨S512, .f32⟩
  | .hbm, ⟨6, _⟩ => ⟨S256x512, .f32⟩
  | .hbm, ⟨7, _⟩ => ⟨S512, .f32⟩
  | .hbm, ⟨8, _⟩ => ⟨S256x256, .f32⟩
  | .hbm, ⟨9, _⟩ => ⟨S256, .f32⟩
  | .hbm, ⟨10, _⟩ => ⟨S1024x128x256, .f32⟩
  | .hbm, ⟨11, _⟩ => ⟨S1024x128x128, .f32⟩
  | .local _ .vmem, ⟨0, _⟩ => ⟨S16x128x256, .f32⟩
  | .local _ .vmem, ⟨1, _⟩ => ⟨S16x128x256, .f32⟩
  | .local _ .vmem, ⟨2, _⟩ => ⟨S16x128x128, .f32⟩
  | .local _ .vmem, ⟨3, _⟩ => ⟨S16x128x128, .f32⟩
  | .local _ .vmem, ⟨4, _⟩ => ⟨S256x256, .f32⟩
  | .local _ .vmem, ⟨5, _⟩ => ⟨S256, .f32⟩
  | .local _ .vmem, ⟨6, _⟩ => ⟨S256x512, .f32⟩
  | .local _ .vmem, ⟨7, _⟩ => ⟨S512, .f32⟩
  | .local _ .vmem, ⟨8, _⟩ => ⟨S256x512, .f32⟩
  | .local _ .vmem, ⟨9, _⟩ => ⟨S512, .f32⟩
  | .local _ .vmem, ⟨10, _⟩ => ⟨S256x256, .f32⟩
  | .local _ .vmem, ⟨11, _⟩ => ⟨S256, .f32⟩
  | .local _ .vmem, ⟨12, _⟩ => ⟨S16x128x256, .f32⟩
  | .local _ .vmem, ⟨13, _⟩ => ⟨S16x128x256, .f32⟩
  | .local _ .vmem, ⟨14, _⟩ => ⟨S16x128x128, .f32⟩
  | .local _ .vmem, ⟨15, _⟩ => ⟨S16x128x128, .f32⟩
  | _, _ => ⟨S1024x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S16x128x256_S16x128x256_0_0_0 : ∀ a, (![0, 0, 0] : Fin 3 → Nat) a + S16x128x256.size a ≤ S16x128x256.size a
  h_S16x128x256 : 0 < S16x128x256.numel
  bitsLt_bf16_f32 : FTy.bits .bf16 < FTy.bits .f32
  shapeCasts_S16x128x256_S2048x256 : S16x128x256.ShapeCasts S2048x256
  inb_S256x256_S256x256_0_0 : ∀ a, (![0, 0] : Fin 2 → Nat) a + S256x256.size a ≤ S256x256.size a
  h_S256x256 : 0 < S256x256.numel
  inb_S256x512_S256x512_0_0 : ∀ a, (![0, 0] : Fin 2 → Nat) a + S256x512.size a ≤ S256x512.size a
  h_S256x512 : 0 < S256x512.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  shapeCasts_S2048x256_S16x128x256 : S2048x256.ShapeCasts S16x128x256
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  shapeCasts_S2048x512_S16x128x512 : S2048x512.ShapeCasts S16x128x512
  inb_S16x128x128_S16x128x128_0_0_0 : ∀ a, (![0, 0, 0] : Fin 3 → Nat) a + S16x128x128.size a ≤ S16x128x128.size a
  h_S16x128x128 : 0 < S16x128x128.numel
  reduces_S16x128x128_S16x128 : S16x128x128.Reduces [2] S16x128
  shapeCasts_S16x128_S16x128x1 : S16x128.ShapeCasts S16x128x1
  broadcasts_S16x128x1_S16x128x128 : S16x128x1.Broadcasts S16x128x128
  dot_S2048x256_S256x256_S2048x256_1_0_0_1_n_n_wf : DotDims.WF S2048x256 S256x256 S2048x256 [1] [0] [0] [1] [] []
  dot_S2048x256_S256x512_S2048x512_1_0_0_1_n_n_wf : DotDims.WF S2048x256 S256x512 S2048x512 [1] [0] [0] [1] [] []
  dot_S16x128x512_S16x128x512_S16x128x128_2_2_1_1_0_0_wf : DotDims.WF S16x128x512 S16x128x512 S16x128x128 [2] [2] [1] [1] [0] [0]
  dot_S16x128x128_S16x128x256_S16x128x256_2_1_1_2_0_0_wf : DotDims.WF S16x128x128 S16x128x256 S16x128x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x256.size a ≤ S1024x128x256.size a
  hwx0_0 : ∀ i : grid0.Coords, EltTy.bits .f32 = 32 ∨ (Rect.block (s := S1024x128x256) S16x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x128.size a ≤ S1024x128x128.size a
  hwx0_1 : ∀ i : grid0.Coords, EltTy.bits .f32 = 32 ∨ (Rect.block (s := S1024x128x128) S16x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .f32 = 32 ∨ (Rect.block (s := S256x512) S256x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x128x256.size a ≤ S1024x128x256.size a
  hwx0_10 : ∀ i : grid0.Coords, EltTy.bits .f32 = 32 ∨ (Rect.block (s := S1024x128x256) S16x128x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16x128x128.size a ≤ S1024x128x128.size a
  hwx0_11 : ∀ i : grid0.Coords, EltTy.bits .f32 = 32 ∨ (Rect.block (s := S1024x128x128) S16x128x128.size (cc0_transform_11 i) (hinb0_11 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S16x128x512_S16x128x512_S16x128x128_2_2_1_1_0_0 : DotDims S16x128x512 S16x128x512 S16x128x128 where
  lhsContracting := [2]
  rhsContracting := [2]
  lhsNonContracting := [1]
  rhsNonContracting := [1]
  lhsBatch := [0]
  rhsBatch := [0]
  wf := dot_S16x128x512_S16x128x512_S16x128x128_2_2_1_1_0_0_wf
def dot_S16x128x128_S16x128x256_S16x128x256_2_1_1_2_0_0 : DotDims S16x128x128 S16x128x256 S16x128x256 where
  lhsContracting := [2]
  rhsContracting := [1]
  lhsNonContracting := [1]
  rhsNonContracting := [2]
  lhsBatch := [0]
  rhsBatch := [0]
  wf := dot_S16x128x128_S16x128x256_S16x128x256_2_1_1_2_0_0_wf

abbrev win0_0 : Pipeline.Window sig grid0 :=
  Pipeline.Window.ofSpec (Memref.whole main_arg0) S16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S16x128x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S16x128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1024x128x256 : Shape := ⟨3, ![1024, 128, 256]⟩
abbrev S1024x128x128 : Shape := ⟨3, ![1024, 128, 128]⟩
abbrev S256x256 : Shape := ⟨2, ![256, 256]⟩
abbrev S256 : Shape := ⟨1, ![256]⟩
abbrev S256x512 : Shape := ⟨2, ![256, 512]⟩
abbrev S512 : Shape := ⟨1, ![512]⟩
abbrev S1x1x256 : Shape := ⟨3, ![1, 1, 256]⟩
abbrev S_ : Shape := ⟨0, ![]⟩
abbrev S1024x128x512 : Shape := ⟨3, ![1024, 128, 512]⟩
abbrev S1x1x512 : Shape := ⟨3, ![1, 1, 512]⟩
abbrev S1024x128 : Shape := ⟨2, ![1024, 128]⟩
abbrev S1024x128x1 : Shape := ⟨3, ![1024, 128, 1]⟩

abbrev nBuf : Space → Nat
  | .hbm => 62
  | .vmem => 0
  | .smem => 0
  | _ => 0

abbrev bufTy : (tb : Table) → Fin (tcTables nBuf tb) → BufTy
  | .hbm, ⟨0, _⟩ => ⟨S1024x128x256, .f32⟩
  | .hbm, ⟨1, _⟩ => ⟨S1024x128x128, .f32⟩
  | .hbm, ⟨2, _⟩ => ⟨S256x256, .f32⟩
  | .hbm, ⟨3, _⟩ => ⟨S256, .f32⟩
  | .hbm, ⟨4, _⟩ => ⟨S256x512, .f32⟩
  | .hbm, ⟨5, _⟩ => ⟨S512, .f32⟩
  | .hbm, ⟨6, _⟩ => ⟨S256x512, .f32⟩
  | .hbm, ⟨7, _⟩ => ⟨S512, .f32⟩
  | .hbm, ⟨8, _⟩ => ⟨S256x256, .f32⟩
  | .hbm, ⟨9, _⟩ => ⟨S256, .f32⟩
  | .hbm, ⟨10, _⟩ => ⟨S1024x128x256, .f32⟩
  | .hbm, ⟨11, _⟩ => ⟨S1x1x256, .f32⟩
  | .hbm, ⟨12, _⟩ => ⟨S1024x128x256, .f32⟩
  | .hbm, ⟨13, _⟩ => ⟨S1024x128x256, .f32⟩
  | .hbm, ⟨14, _⟩ => ⟨S_, .f32⟩
  | .hbm, ⟨15, _⟩ => ⟨S1024x128x256, .f32⟩
  | .hbm, ⟨16, _⟩ => ⟨S1024x128x256, .f32⟩
  | .hbm, ⟨17, _⟩ => ⟨S1024x128x512, .f32⟩
  | .hbm, ⟨18, _⟩ => ⟨S1x1x512, .f32⟩
  | .hbm, ⟨19, _⟩ => ⟨S1024x128x512, .f32⟩
  | .hbm, ⟨20, _⟩ => ⟨S1024x128x512, .f32⟩
  | .hbm, ⟨21, _⟩ => ⟨S_, .f32⟩
  | .hbm, ⟨22, _⟩ => ⟨S1024x128x512, .f32⟩
  | .hbm, ⟨23, _⟩ => ⟨S1024x128x512, .f32⟩
  | .hbm, ⟨24, _⟩ => ⟨S1024x128x512, .f32⟩
  | .hbm, ⟨25, _⟩ => ⟨S1x1x512, .f32⟩
  | .hbm, ⟨26, _⟩ => ⟨S1024x128x512, .f32⟩
  | .hbm, ⟨27, _⟩ => ⟨S1024x128x512, .f32⟩
  | .hbm, ⟨28, _⟩ => ⟨S_, .f32⟩
  | .hbm, ⟨29, _⟩ => ⟨S1024x128x512, .f32⟩
  | .hbm, ⟨30, _⟩ => ⟨S1024x128x512, .f32⟩
  | .hbm, ⟨31, _⟩ => ⟨S1024x128x128, .f32⟩
  | .hbm, ⟨32, _⟩ => ⟨S1024x128x128, .f32⟩
  | .hbm, ⟨33, _⟩ => ⟨S_, .f32⟩
  | .hbm, ⟨34, _⟩ => ⟨S1024x128x128, .f32⟩
  | .hbm, ⟨35, _⟩ => ⟨S1024x128x128, .f32⟩
  | .hbm, ⟨36, _⟩ => ⟨S_, .f32⟩
  | .hbm, ⟨37, _⟩ => ⟨S1024x128x128, .f32⟩
  | .hbm, ⟨38, _⟩ => ⟨S1024x128x128, .f32⟩
  | .hbm, ⟨39, _⟩ => ⟨S1024x128x128, .f32⟩
  | .hbm, ⟨40, _⟩ => ⟨S_, .f32⟩
  | .hbm, ⟨41, _⟩ => ⟨S1024x128, .f32⟩
  | .hbm, ⟨42, _⟩ => ⟨S_, .f32⟩
  | .hbm, ⟨43, _⟩ => ⟨S1024x128, .f32⟩
  | .hbm, ⟨44, _⟩ => ⟨S1024x128, .f32⟩
  | .hbm, ⟨45, _⟩ => ⟨S1024x128x1, .f32⟩
  | .hbm, ⟨46, _⟩ => ⟨S1024x128x128, .f32⟩
  | .hbm, ⟨47, _⟩ => ⟨S1024x128x128, .f32⟩
  | .hbm, ⟨48, _⟩ => ⟨S1024x128x128, .f32⟩
  | .hbm, ⟨49, _⟩ => ⟨S_, .f32⟩
  | .hbm, ⟨50, _⟩ => ⟨S1024x128, .f32⟩
  | .hbm, ⟨51, _⟩ => ⟨S1024x128x1, .f32⟩
  | .hbm, ⟨52, _⟩ => ⟨S1024x128x128, .f32⟩
  | .hbm, ⟨53, _⟩ => ⟨S1024x128x128, .f32⟩
  | .hbm, ⟨54, _⟩ => ⟨S1024x128x256, .f32⟩
  | .hbm, ⟨55, _⟩ => ⟨S1024x128x256, .f32⟩
  | .hbm, ⟨56, _⟩ => ⟨S1x1x256, .f32⟩
  | .hbm, ⟨57, _⟩ => ⟨S1024x128x256, .f32⟩
  | .hbm, ⟨58, _⟩ => ⟨S1024x128x256, .f32⟩
  | .hbm, ⟨59, _⟩ => ⟨S_, .f32⟩
  | .hbm, ⟨60, _⟩ => ⟨S1024x128x256, .f32⟩
  | .hbm, ⟨61, _⟩ => ⟨S1024x128x256, .f32⟩
  | _, _ => ⟨S1024x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call3_cst : Ref sig .tc := ⟨.hbm, 59, rfl⟩
abbrev main_call3_v0 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S1024x128x256_0_1_2 : S1x1x256.BroadcastsInDim S1024x128x256 (![0, 1, 2] : Fin 3 → Fin S1024x128x256.rank)
  bcast_S_S1024x128x256 : S_.BroadcastsInDim S1024x128x256 (![] : Fin 0 → Fin S1024x128x256.rank)
  bcast_S512_S1x1x512_2 : S512.BroadcastsInDim S1x1x512 (![2] : Fin 1 → Fin S1x1x512.rank)
  bcast_S1x1x512_S1024x128x512_0_1_2 : S1x1x512.BroadcastsInDim S1024x128x512 (![0, 1, 2] : Fin 3 → Fin S1024x128x512.rank)
  bcast_S_S1024x128x512 : S_.BroadcastsInDim S1024x128x512 (![] : Fin 0 → Fin S1024x128x512.rank)
  bcast_S_S1024x128x128 : S_.BroadcastsInDim S1024x128x128 (![] : Fin 0 → Fin S1024x128x128.rank)
  reducesTo_S1024x128x128_S1024x128_d2 : S1024x128x128.ReducesTo [2] S1024x128
  h_S_ : 0 < S_.numel
  bcast_S_S1024x128 : S_.BroadcastsInDim S1024x128 (![] : Fin 0 → Fin S1024x128.rank)
  bcast_S1024x128_S1024x128x1_0_1 : S1024x128.BroadcastsInDim S1024x128x1 (![0, 1] : Fin 2 → Fin S1024x128x1.rank)
  bcast_S1024x128x1_S1024x128x128_0_1_2 : S1024x128x1.BroadcastsInDim S1024x128x128 (![0, 1, 2] : Fin 3 → Fin S1024x128x128.rank)
  dot_S1024x128x256_S256x256_S1024x128x256_2_0_01_1_n_n_wf : DotDims.WF S1024x128x256 S256x256 S1024x128x256 [2] [0] [0, 1] [1] [] []
  dot_S1024x128x256_S256x512_S1024x128x512_2_0_01_1_n_n_wf : DotDims.WF S1024x128x256 S256x512 S1024x128x512 [2] [0] [0, 1] [1] [] []
  dot_S1024x128x512_S1024x128x512_S1024x128x128_2_2_1_1_0_0_wf : DotDims.WF S1024x128x512 S1024x128x512 S1024x128x128 [2] [2] [1] [1] [0] [0]
  dot_S1024x128x128_S1024x128x256_S1024x128x256_2_1_1_2_0_0_wf : DotDims.WF S1024x128x128 S1024x128x256 S1024x128x256 [2] [1] [1] [2] [0] [0]

variable [Facts₀]

def dot_S1024x128x256_S256x256_S1024x128x256_2_0_01_1_n_n : DotDims S1024x128x256 S256x256 S1024x128x256 where
  lhsContracting := [2]
  rhsContracting := [0]
  lhsNonContracting := [0, 1]
  rhsNonContracting := [1]
  lhsBatch := []
  rhsBatch := []
  wf := dot_S1024x128x256_S256x256_S1024x128x256_2_0_01_1_n_n_wf
def dot_S1024x128x256_S256x512_S1024x128x512_2_0_01_1_n_n : DotDims S1024x128x256 S256x512 S1024x128x512 where
  lhsContracting := [2]
  rhsContracting := [0]
  lhsNonContracting := [0, 1]
  rhsNonContracting := [1]
  lhsBatch := []
  rhsBatch := []
  wf := dot_S1024x128x256_S256x512_S1024x128x512_2_0_01_1_n_n_wf
def dot_S1024x128x512_S1024x128x512_S1024x128x128_2_2_1_1_0_0 : DotDims S1024x128x512 S1024x128x512 S1024x128x128 where
  lhsContracting := [2]
  rhsContracting := [2]
  lhsNonContracting := [1]
  rhsNonContracting := [1]
  lhsBatch := [0]
  rhsBatch := [0]
  wf := dot_S1024x128x512_S1024x128x512_S1024x128x128_2_2_1_1_0_0_wf
def dot_S1024x128x128_S1024x128x256_S1024x128x256_2_1_1_2_0_0 : DotDims S1024x128x128 S1024x128x256 S1024x128x256 where
  lhsContracting := [2]
  rhsContracting := [1]
  lhsNonContracting := [1]
  rhsNonContracting := [2]
  lhsBatch := [0]
  rhsBatch := [0]
  wf := dot_S1024x128x128_S1024x128x256_S1024x128x256_2_1_1_2_0_0_wf

class Facts : Prop extends Facts₀ where

variable [Facts]
-- ==== Proof.AttnSpec.lean ====
/-
  One batch row of masked attention, as plain functions of coordinates on the extended reals.

  For a row's activations `x : 128 × 256`, its mask `mk : 128 × 128` and the weights:
    v = relu (x·Wv + bv),  q = relu (x·Wq + bq),  k = relu (x·Wk + bk)          (dense)
    s n m = Σ_j q n j · k m j                                                    (scores)
    l n m = s n m · mk n m − 1000 · (1 − mk n m)                                 (logits)
    M n   = max (−∞) (max over m of l n m, folded from −∞)                       (rowMax)
    e n m = exp (l n m − M n),   a n m = e n m / Σ_m' e n m'                     (expo, softmax)
    c n h = Σ_m a n m · v m h                                                    (mix)
    out   = relu (c·Wo + bo)
  Both programs compute exactly these, operation for operation; nothing below is rearranged, so no
  law of the extended reals is used and the inputs' finiteness is never needed. The float words
  (0, 1, 1000, −∞) are kept as the words both programs print.
-/
import Idealize.ShloMosaic.PureOps.Ideal
import Idealize.ShloMosaic.Lib.ValueIdx

noncomputable section

namespace Cert.AttnSpec

open Idealize.ShloMosaic Idealize.ShloMosaic.ValueIdx

variable {N D H K : Nat}

/-- The rectifier's zero, the mask's one, the penalty 1000 and the maximum's start −∞, as printed. -/
abbrev w0 : EReal := Ideal.ofBits .f32 0x00000000#32
abbrev w1 : EReal := Ideal.ofBits .f32 0x3F800000#32
abbrev w1000 : EReal := Ideal.ofBits .f32 0x447A0000#32
abbrev wNegInf : EReal := Ideal.ofBits .f32 0xFF800000#32

/-- A dense layer and the rectifier: entry (n, h) is `max (Σ_d x n d · W d h + b h) 0`. -/
def dense (x : Fin N → Fin D → EReal) (W : Fin D → Fin H → EReal) (b : Fin H → EReal) (n : Fin N) (h : Fin H) : EReal :=
  max ((∑ d : Fin D, x n d * W d h) + b h) w0

/-- Scores: entry (n, m) is the inner product of query row n and key row m. -/
def scores (q k : Fin N → Fin K → EReal) (n m : Fin N) : EReal :=
  ∑ j : Fin K, q n j * k m j

/-- Masked logits: the score where the mask is one, pushed down by 1000 where it is zero. -/
def logits (s mk : Fin N → Fin N → EReal) (n m : Fin N) : EReal :=
  s n m * mk n m - w1000 * (w1 - mk n m)

/-- A row's maximum, folded from −∞ and compared with −∞ once more, as both programs do. -/
def rowMax (l : Fin N → Fin N → EReal) (n : Fin N) : EReal :=
  max wNegInf ((Finset.univ : Finset (Fin N)).fold max wNegInf (l n))

/-- The shifted exponentials. -/
def expo (l : Fin N → Fin N → EReal) (n m : Fin N) : EReal :=
  Ideal.exp (l n m - rowMax l n)

/-- A row's softmax: each exponential over the row's sum of them. -/
def softmax (l : Fin N → Fin N → EReal) (n m : Fin N) : EReal :=
  Ideal.div (expo l n m) (∑ m' : Fin N, expo l n m')

/-- The attention-weighted mixture of the value rows. -/
def mix (a : Fin N → Fin N → EReal) (v : Fin N → Fin H → EReal) (n : Fin N) (h : Fin H) : EReal :=
  ∑ m : Fin N, a n m * v m h

/-- The masked logits of one batch row, from its activations. -/
def logitRow (x : Fin N → Fin D → EReal) (mk : Fin N → Fin N → EReal)
    (Wq : Fin D → Fin K → EReal) (bq : Fin K → EReal) (Wk : Fin D → Fin K → EReal) (bk : Fin K → EReal) :
    Fin N → Fin N → EReal :=
  logits (scores (dense x Wq bq) (dense x Wk bk)) mk

/-- The attention weights of one batch row. -/
def attRow (x : Fin N → Fin D → EReal) (mk : Fin N → Fin N → EReal)
    (Wq : Fin D → Fin K → EReal) (bq : Fin K → EReal) (Wk : Fin D → Fin K → EReal) (bk : Fin K → EReal) :
    Fin N → Fin N → EReal :=
  softmax (logitRow x mk Wq bq Wk bk)

/-- The output of one batch row. -/
def outRow {O : Nat} (x : Fin N → Fin D → EReal) (mk : Fin N → Fin N → EReal)
    (Wv : Fin D → Fin H → EReal) (bv : Fin H → EReal)
    (Wq : Fin D → Fin K → EReal) (bq : Fin K → EReal) (Wk : Fin D → Fin K → EReal) (bk : Fin K → EReal)
    (Wo : Fin H → Fin O → EReal) (bo : Fin O → EReal) : Fin N → Fin O → EReal :=
  dense (mix (attRow x mk Wq bq Wk bk) (dense x Wv bv)) Wo bo

/-! ## Arrays as functions of coordinates -/

/-- Batch row `b` of a three-axis array. -/
abbrev row3 {B R C : Nat} (x : (⟨3, ![B, R, C]⟩ : Shape).Idx → EReal) (b : Fin B) : Fin R → Fin C → EReal :=
  fun r c => x (ix3 b r c)

/-- A two-axis array as a function of its two coordinates. -/
abbrev mat2 {R C : Nat} (x : (⟨2, ![R, C]⟩ : Shape).Idx → EReal) : Fin R → Fin C → EReal :=
  fun r c => x (ix2 r c)

/-- A one-axis array as a function of its coordinate. -/
abbrev vec1 {C : Nat} (x : (⟨1, ![C]⟩ : Shape).Idx → EReal) : Fin C → EReal :=
  fun c => x (ix1 c)

/-- The whole attention array: batch row by batch row. -/
def attArr {B : Nat} (x : (⟨3, ![B, 128, 256]⟩ : Shape).Idx → EReal) (mk : (⟨3, ![B, 128, 128]⟩ : Shape).Idx → EReal)
    (Wq : (⟨2, ![256, 512]⟩ : Shape).Idx → EReal) (bq : (⟨1, ![512]⟩ : Shape).Idx → EReal)
    (Wk : (⟨2, ![256, 512]⟩ : Shape).Idx → EReal) (bk : (⟨1, ![512]⟩ : Shape).Idx → EReal) :
    (⟨3, ![B, 128, 128]⟩ : Shape).Idx → EReal :=
  fun i => attRow (row3 x (i 0)) (row3 mk (i 0)) (mat2 Wq) (vec1 bq) (mat2 Wk) (vec1 bk) (i 1) (i 2)

/-- The whole output array: batch row by batch row. -/
def outArr {B : Nat} (x : (⟨3, ![B, 128, 256]⟩ : Shape).Idx → EReal) (mk : (⟨3, ![B, 128, 128]⟩ : Shape).Idx → EReal)
    (Wv : (⟨2, ![256, 256]⟩ : Shape).Idx → EReal) (bv : (⟨1, ![256]⟩ : Shape).Idx → EReal)
    (Wq : (⟨2, ![256, 512]⟩ : Shape).Idx → EReal) (bq : (⟨1, ![512]⟩ : Shape).Idx → EReal)
    (Wk : (⟨2, ![256, 512]⟩ : Shape).Idx → EReal) (bk : (⟨1, ![512]⟩ : Shape).Idx → EReal)
    (Wo : (⟨2, ![256, 256]⟩ : Shape).Idx → EReal) (bo : (⟨1, ![256]⟩ : Shape).Idx → EReal) :
    (⟨3, ![B, 128, 256]⟩ : Shape).Idx → EReal :=
  fun i => outRow (row3 x (i 0)) (row3 mk (i 0)) (mat2 Wv) (vec1 bv) (mat2 Wq) (vec1 bq) (mat2 Wk) (vec1 bk)
    (mat2 Wo) (vec1 bo) (i 1) (i 2)

end Cert.AttnSpec

end
-- ==== Proof.RefBridge.lean ====
/-
  The reference program computes the specification.

  Each stage of the reference's run is read at an index (batch row b, row n, column) and shown to be the
  specification's stage on batch row b: the three projections, the scores, the masked logits, the row
  maximum (the host's reduction is a fold of `max` from −∞, in any order), the exponentials, their sum
  (the host's sum starts from the zero word), the quotient, the mixture and the output projection.
  Each stage is read one operation at a time; the row maximum, a fold over a whole row rather than one
  element of its operand, is read here through the fold over the row's coordinates.
-/
import proofs.«114450_j47141561040904_1_alg».proof.Proof.Gen.ReferenceIdeal.Read
import proofs.«114450_j47141561040904_1_alg».proof.Proof.AttnSpec

noncomputable section

namespace Cert.RefBridge

open Cert.ReferenceIdeal Cert.ReferenceIdeal.Read Cert.AttnSpec
open Idealize.ShloMosaic Idealize.ShloMosaic.ValueIdx

/-- The reference's arrays at the ideal values: functions from an index to an extended real. -/
abbrev Arr (s : Shape) : Type := (⟨s, .f32⟩ : BufTy).Contents (Elt Ideal)

variable (x0 : Arr S1024x128x256) (x1 : Arr S1024x128x128) (x2 : Arr S256x256) (x3 : Arr S256)
  (x4 : Arr S256x512) (x5 : Arr S512) (x6 : Arr S256x512) (x7 : Arr S512) (x8 : Arr S256x256) (x9 : Arr S256)

/-! ## The three projections: relu (x·W + bias), batch row b -/

/-- The value projection. -/
theorem v4_eq (b : Fin 1024) (n : Fin 128) (h : Fin 256) :
    val_main_v4 (F := Ideal) x0 x2 x3 (ix3 b n h) = dense (row3 x0 b) (mat2 x2) (vec1 x3) n h := by
  rw [val_main_v4_apply, val_main_v3_apply, val_main_v0_apply, val_main_v2_apply, val_main_v1_apply,
    val_main_call0_v0_apply, val_main_call0_cst_apply]
  have e1 : ∀ k : Fin 256, lidx_main_v0 (ix3 b n h) k = ix3 b n k := fun k => funext fun a => Fin.ext (by match a with | ⟨0, _⟩ => rfl | ⟨1, _⟩ => rfl | ⟨2, _⟩ => rfl)
  have e2 : ∀ k : Fin 256, ridx_main_v0 (ix3 b n h) k = ix2 k h := fun k => funext fun a => Fin.ext (by match a with | ⟨0, _⟩ => rfl | ⟨1, _⟩ => rfl)
  have e3 : idx_main_v1 (idx_main_v2 (ix3 b n h)) = ix1 h := funext fun a => Fin.ext (by match a with | ⟨0, _⟩ => rfl)
  simp only [e1, e2, e3]
  rfl

/-- The query projection. -/
theorem v9_eq (b : Fin 1024) (n : Fin 128) (k : Fin 512) :
    val_main_v9 (F := Ideal) x0 x4 x5 (ix3 b n k) = dense (row3 x0 b) (mat2 x4) (vec1 x5) n k := by
  rw [val_main_v9_apply, val_main_v8_apply, val_main_v5_apply, val_main_v7_apply, val_main_v6_apply,
    val_main_call1_v0_apply, val_main_call1_cst_apply]
  have e1 : ∀ j : Fin 256, lidx_main_v5 (ix3 b n k) j = ix3 b n j := fun j => funext fun a => Fin.ext (by match a with | ⟨0, _⟩ => rfl | ⟨1, _⟩ => rfl | ⟨2, _⟩ => rfl)
  have e2 : ∀ j : Fin 256, ridx_main_v5 (ix3 b n k) j = ix2 j k := fun j => funext fun a => Fin.ext (by match a with | ⟨0, _⟩ => rfl | ⟨1, _⟩ => rfl)
  have e3 : idx_main_v6 (idx_main_v7 (ix3 b n k)) = ix1 k := funext fun a => Fin.ext (by match a with | ⟨0, _⟩ => rfl)
  simp only [e1, e2, e3]
  rfl

/-- The key projection. -/
theorem v14_eq (b : Fin 1024) (n : Fin 128) (k : Fin 512) :
    val_main_v14 (F := Ideal) x0 x6 x7 (ix3 b n k) = dense (row3 x0 b) (mat2 x6) (vec1 x7) n k := by
  rw [val_main_v14_apply, val_main_v13_apply, val_main_v10_apply, val_main_v12_apply, val_main_v11_apply,
    val_main_call2_v0_apply, val_main_call2_cst_apply]
  have e1 : ∀ j : Fin 256, lidx_main_v10 (ix3 b n k) j = ix3 b n j := fun j => funext fun a => Fin.ext (by match a with | ⟨0, _⟩ => rfl | ⟨1, _⟩ => rfl | ⟨2, _⟩ => rfl)
  have e2 : ∀ j : Fin 256, ridx_main_v10 (ix3 b n k) j = ix2 j k := fun j => funext fun a => Fin.ext (by match a with | ⟨0, _⟩ => rfl | ⟨1, _⟩ => rfl)
  have e3 : idx_main_v11 (idx_main_v12 (ix3 b n k)) = ix1 k := funext fun a => Fin.ext (by match a with | ⟨0, _⟩ => rfl)
  simp only [e1, e2, e3]
  rfl

/-! ## Scores and masked logits -/

/-- The scores: query row n against key row m, within batch row b. -/
theorem v15_eq (b : Fin 1024) (n m : Fin 128) :
    val_main_v15 (F := Ideal) x0 x4 x5 x6 x7 (ix3 b n m)
      = scores (dense (row3 x0 b) (mat2 x4) (vec1 x5)) (dense (row3 x0 b) (mat2 x6) (vec1 x7)) n m := by
  rw [val_main_v15_apply]
  unfold scores
  refine Finset.sum_congr rfl fun j _ => ?_
  have el : lidx_main_v15 (ix3 b n m) j = ix3 b n j := funext fun a => Fin.ext (by match a with | ⟨0, _⟩ => rfl | ⟨1, _⟩ => rfl | ⟨2, _⟩ => rfl)
  have er : ridx_main_v15 (ix3 b n m) j = ix3 b m j := funext fun a => Fin.ext (by match a with | ⟨0, _⟩ => rfl | ⟨1, _⟩ => rfl | ⟨2, _⟩ => rfl)
  rw [el, er, v9_eq, v14_eq]

/-- The masked logits. -/
theorem v21_eq (b : Fin 1024) (n m : Fin 128) :
    val_main_v21 (F := Ideal) x0 x1 x4 x5 x6 x7 (ix3 b n m) = logitRow (row3 x0 b) (row3 x1 b) (mat2 x4) (vec1 x5) (mat2 x6) (vec1 x7) n m := by
  rw [val_main_v21_apply, val_main_v16_apply, val_main_v20_apply, val_main_v19_apply, val_main_cst_0_apply,
    val_main_v18_apply, val_main_v17_apply, val_main_cst_apply, v15_eq]
  rfl

/-! ## The softmax -/

/-- The row maximum: the host's reduction is the fold of `max` from −∞ over the row, whatever its order. -/
theorem v24_eq (b : Fin 1024) (n : Fin 128) :
    val_main_v24 (F := Ideal) x0 x1 x4 x5 x6 x7 (ix2 b n) = rowMax (logitRow (row3 x0 b) (row3 x1 b) (mat2 x4) (vec1 x5) (mat2 x6) (vec1 x7)) n := by
  have hr : S1024x128x128.Reduces [2] S1024x128 := by decide
  rw [val_main_v24_apply, val_main_v23_apply, val_main_cst_2_apply]
  unfold val_main_v22
  rw [Host.reduce_eq_fold_single (FloatOps.maximumf (F := Ideal) (φ := .f32)) _ _ _ hr _ (ix2 b n),
    val_main_cst_1_apply]
  have e : (val_main_v21 (F := Ideal) x0 x1 x4 x5 x6 x7 ∘ hr.lift (ix2 b n)) = logitRow (row3 x0 b) (row3 x1 b) (mat2 x4) (vec1 x5) (mat2 x6) (vec1 x7) n :=
    funext fun m => (congrArg (val_main_v21 (F := Ideal) x0 x1 x4 x5 x6 x7)
      (show hr.lift (ix2 b n) m = ix3 b n (show Fin 128 from m) from funext fun a => Fin.ext (by match a with | ⟨0, _⟩ => rfl | ⟨1, _⟩ => rfl | ⟨2, _⟩ => rfl))).trans
        (v21_eq x0 x1 x4 x5 x6 x7 b n m)
  rw [e]
  rfl

/-- The shifted exponentials. -/
theorem v28_eq (b : Fin 1024) (n m : Fin 128) :
    val_main_v28 (F := Ideal) x0 x1 x4 x5 x6 x7 (ix3 b n m) = expo (logitRow (row3 x0 b) (row3 x1 b) (mat2 x4) (vec1 x5) (mat2 x6) (vec1 x7)) n m := by
  rw [val_main_v28_apply, val_main_v27_apply, val_main_v26_apply, val_main_v25_apply, v21_eq]
  have e : idx_main_v25 (idx_main_v26 (ix3 b n m)) = ix2 b n := funext fun a => Fin.ext (by match a with | ⟨0, _⟩ => rfl | ⟨1, _⟩ => rfl)
  rw [e, v24_eq]
  rfl

/-- The row's sum of exponentials: the host's sum starts from the zero word. -/
theorem v29_eq (b : Fin 1024) (n : Fin 128) :
    val_main_v29 (F := Ideal) x0 x1 x4 x5 x6 x7 (ix2 b n) = ∑ m : Fin 128, expo (logitRow (row3 x0 b) (row3 x1 b) (mat2 x4) (vec1 x5) (mat2 x6) (vec1 x7)) n m := by
  rw [val_main_v29_apply, val_main_cst_3_apply]
  show Ideal.ofBits .f32 0x00000000#32 + _ = _
  rw [Ideal.ofBits_zero_f32, zero_add]
  refine Finset.sum_congr rfl fun m _ => ?_
  rw [show idx_main_v29 (ix2 b n) m = ix3 b n m from funext fun a => Fin.ext (by match a with | ⟨0, _⟩ => rfl | ⟨1, _⟩ => rfl | ⟨2, _⟩ => rfl), v28_eq]

/-- The attention weights. -/
theorem v32_eq (b : Fin 1024) (n m : Fin 128) :
    val_main_v32 (F := Ideal) x0 x1 x4 x5 x6 x7 (ix3 b n m) = attRow (row3 x0 b) (row3 x1 b) (mat2 x4) (vec1 x5) (mat2 x6) (vec1 x7) n m := by
  rw [val_main_v32_apply, val_main_v31_apply, val_main_v30_apply, v28_eq]
  have e : idx_main_v30 (idx_main_v31 (ix3 b n m)) = ix2 b n := funext fun a => Fin.ext (by match a with | ⟨0, _⟩ => rfl | ⟨1, _⟩ => rfl)
  rw [e, v29_eq]
  rfl

/-! ## The mixture and the output projection -/

/-- The attention-weighted mixture of the value rows. -/
theorem v33_eq (b : Fin 1024) (n : Fin 128) (h : Fin 256) :
    val_main_v33 (F := Ideal) x0 x1 x2 x3 x4 x5 x6 x7 (ix3 b n h)
      = mix (attRow (row3 x0 b) (row3 x1 b) (mat2 x4) (vec1 x5) (mat2 x6) (vec1 x7)) (dense (row3 x0 b) (mat2 x2) (vec1 x3)) n h := by
  rw [val_main_v33_apply]
  unfold mix
  refine Finset.sum_congr rfl fun m _ => ?_
  have el : lidx_main_v33 (ix3 b n h) m = ix3 b n m := funext fun a => Fin.ext (by match a with | ⟨0, _⟩ => rfl | ⟨1, _⟩ => rfl | ⟨2, _⟩ => rfl)
  have er : ridx_main_v33 (ix3 b n h) m = ix3 b m h := funext fun a => Fin.ext (by match a with | ⟨0, _⟩ => rfl | ⟨1, _⟩ => rfl | ⟨2, _⟩ => rfl)
  rw [el, er, v32_eq, v4_eq]

/-- The output. -/
theorem v38_eq (b : Fin 1024) (n : Fin 128) (d : Fin 256) :
    val_main_v38 (F := Ideal) x0 x1 x2 x3 x4 x5 x6 x7 x8 x9 (ix3 b n d)
      = outRow (row3 x0 b) (row3 x1 b) (mat2 x2) (vec1 x3) (mat2 x4) (vec1 x5) (mat2 x6) (vec1 x7) (mat2 x8) (vec1 x9) n d := by
  rw [val_main_v38_apply, val_main_v37_apply, val_main_v34_apply, val_main_v36_apply, val_main_v35_apply,
    val_main_call3_v0_apply, val_main_call3_cst_apply]
  have e1 : ∀ j : Fin 256, lidx_main_v34 (ix3 b n d) j = ix3 b n j := fun j => funext fun a => Fin.ext (by match a with | ⟨0, _⟩ => rfl | ⟨1, _⟩ => rfl | ⟨2, _⟩ => rfl)
  have e2 : ∀ j : Fin 256, ridx_main_v34 (ix3 b n d) j = ix2 j d := fun j => funext fun a => Fin.ext (by match a with | ⟨0, _⟩ => rfl | ⟨1, _⟩ => rfl)
  have e3 : idx_main_v35 (idx_main_v36 (ix3 b n d)) = ix1 d := funext fun a => Fin.ext (by match a with | ⟨0, _⟩ => rfl)
  simp only [e1, e2, e3, v33_eq]
  rfl

/-! ## The two results as whole arrays -/

/-- The reference's attention array is the specification's, batch row by batch row. -/
theorem ref_att : val_main_v32 (F := Ideal) x0 x1 x4 x5 x6 x7 = attArr x0 x1 x4 x5 x6 x7 := by
  funext i
  obtain ⟨b, n, m, rfl⟩ : ∃ (b : Fin 1024) (n m : Fin 128), i = ix3 b n m := ⟨i 0, i 1, i 2, eq_ix3 i⟩
  rw [v32_eq]
  rfl

/-- The reference's output array is the specification's. -/
theorem ref_out : val_main_v38 (F := Ideal) x0 x1 x2 x3 x4 x5 x6 x7 x8 x9 = outArr x0 x1 x2 x3 x4 x5 x6 x7 x8 x9 := by
  funext i
  obtain ⟨b, n, d, rfl⟩ : ∃ (b : Fin 1024) (n : Fin 128) (d : Fin 256), i = ix3 b n d := ⟨i 0, i 1, i 2, eq_ix3 i⟩
  rw [v38_eq]
  rfl

end Cert.RefBridge

end
-- ==== Proof.KernelOps.lean ====
/-
  The kernel body's vector operations read at an index, at the ideal values.

  The body flattens a block of 16 batch rows × 128 rows into 2048 rows (row `bb·128 + n`), projects,
  and unflattens; adds a bias as a one-row array broadcast down the rows; broadcasts a per-row number
  across the row's 128 columns; multiplies matrices into a zero accumulator; and reduces along the
  last axis by maximum and by sum. Each lemma says what one such operation holds at an index built
  from coordinates. A matrix product into the zero accumulator is the sum, over the one contracted axis,
  of the operands' products; the contraction index is re-indexed by its single coordinate.
-/
import proofs.«114450_j47141561040904_1_alg».proof.Proof.Gen.KernelIdeal
import Idealize.ShloMosaic.Lib.Pipeline.Value
import Idealize.ShloMosaic.Lib.ValueIdx
import Idealize.ShloMosaic.PureOps.Ideal.Laws

noncomputable section

namespace Cert.KernelOps

open Cert.KernelIdeal Idealize.ShloMosaic Idealize.ShloMosaic.ValueIdx

/-- The flattened row of batch row `bb`, row `n`: `bb·128 + n`. -/
def rowOf (bb : Fin 16) (n : Fin 128) : Fin 2048 :=
  ⟨bb.val * 128 + n.val, by have := bb.isLt; have := n.isLt; omega⟩

/-! ## Reshapes between 16 × 128 × C and 2048 × C -/

/-- Flattening: row `bb·128 + n` of the flattened array is row n of batch row bb. -/
theorem flatten_apply {α : Type} {C : Nat} (v : (⟨3, ![16, 128, C]⟩ : Shape).Idx → α)
    (h : (⟨3, ![16, 128, C]⟩ : Shape).ShapeCasts ⟨2, ![2048, C]⟩) (bb : Fin 16) (n : Fin 128) (c : Fin C) :
    shapeCast ⟨2, ![2048, C]⟩ v h (ix2 (rowOf bb n) c) = v (ix3 bb n c) :=
  shapeCast_apply v h _ (ix3 bb n c) (by rw [Shape.rowMajor_val_three, Shape.rowMajor_val_two]; rfl)

/-- Unflattening: row n of batch row bb is row `bb·128 + n` of the flat array. -/
theorem unflatten_apply {α : Type} {C : Nat} (w : (⟨2, ![2048, C]⟩ : Shape).Idx → α)
    (h : (⟨2, ![2048, C]⟩ : Shape).ShapeCasts ⟨3, ![16, 128, C]⟩) (bb : Fin 16) (n : Fin 128) (c : Fin C) :
    shapeCast ⟨3, ![16, 128, C]⟩ w h (ix3 bb n c) = w (ix2 (rowOf bb n) c) :=
  shapeCast_apply w h _ (ix2 (rowOf bb n) c) (by rw [Shape.rowMajor_val_three, Shape.rowMajor_val_two]; rfl)

/-! ## Broadcasts -/

/-- A bias of 256 entries, as one row broadcast down 2048 rows: every row holds the bias. -/
theorem biasRow256 {α : Type} (v : S256.Idx → α) (h1 : S256.ShapeCasts S1x256) (h2 : S1x256.Broadcasts S2048x256)
    (r : Fin 2048) (c : Fin 256) :
    broadcastTo S2048x256 (shapeCast S1x256 v h1) h2 (ix2 r c) = v (ix1 c) := by
  refine (broadcastTo_apply _ h2 (ix2 r c) (ix2 (0 : Fin 1) c) (fun a => match a with
    | ⟨0, _⟩ => by show (0 : Nat) = if (1 : Nat) = 1 then 0 else r.val; rw [if_pos rfl]
    | ⟨1, _⟩ => by show c.val = if (256 : Nat) = 1 then 0 else c.val; rw [if_neg (by decide)])).trans ?_
  refine (shapeCast_addUnit_apply ![256] v h1 (ix2 (0 : Fin 1) c)).trans ?_
  exact congrArg v (funext fun a => match a with | ⟨0, _⟩ => rfl)

/-- The same for a bias of 512 entries. -/
theorem biasRow512 {α : Type} (v : S512.Idx → α) (h1 : S512.ShapeCasts S1x512) (h2 : S1x512.Broadcasts S2048x512)
    (r : Fin 2048) (c : Fin 512) :
    broadcastTo S2048x512 (shapeCast S1x512 v h1) h2 (ix2 r c) = v (ix1 c) := by
  refine (broadcastTo_apply _ h2 (ix2 r c) (ix2 (0 : Fin 1) c) (fun a => match a with
    | ⟨0, _⟩ => by show (0 : Nat) = if (1 : Nat) = 1 then 0 else r.val; rw [if_pos rfl]
    | ⟨1, _⟩ => by show c.val = if (512 : Nat) = 1 then 0 else c.val; rw [if_neg (by decide)])).trans ?_
  refine (shapeCast_addUnit_apply ![512] v h1 (ix2 (0 : Fin 1) c)).trans ?_
  exact congrArg v (funext fun a => match a with | ⟨0, _⟩ => rfl)

/-- A number per (batch row, row), given a unit last axis and broadcast across the row's 128 columns. -/
theorem perRow_apply {α : Type} (w : S16x128.Idx → α) (h1 : S16x128.ShapeCasts S16x128x1)
    (h2 : S16x128x1.Broadcasts S16x128x128) (bb : Fin 16) (n m : Fin 128) :
    broadcastTo S16x128x128 (shapeCast S16x128x1 w h1) h2 (ix3 bb n m) = w (ix2 bb n) := by
  refine (broadcastTo_apply _ h2 (ix3 bb n m) (ix3 bb n (0 : Fin 1)) (fun a => match a with
    | ⟨0, _⟩ => by show bb.val = if (16 : Nat) = 1 then 0 else bb.val; rw [if_neg (by decide)]
    | ⟨1, _⟩ => by show n.val = if (128 : Nat) = 1 then 0 else n.val; rw [if_neg (by decide)]
    | ⟨2, _⟩ => by show (0 : Nat) = if (1 : Nat) = 1 then 0 else m.val; rw [if_pos rfl])).trans ?_
  exact shapeCast_apply w h1 _ (ix2 bb n) (by
    rw [Shape.rowMajor_val_two, Shape.rowMajor_val_three]
    show bb.val * 128 + n.val = (bb.val * 128 + n.val) * 1 + 0
    omega)

/-! ## Matrix products as sums -/

theorem lhs_proj256_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_proj256_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_proj256_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_proj256_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- A projection through a 256-column weight: row r, column h is Σ_d L r d · R d h. Into the zero accumulator, at the ideal values. -/
theorem matmul_proj256 {φ₁ φ₂ : FTy} (L : FVec Ideal S2048x256 φ₁) (R : FVec Ideal S256x256 φ₂) (r : Fin 2048) (h : Fin 256) :
    matmul (F := Ideal) dot_S2048x256_S256x256_S2048x256_1_0_0_1_n_n none L R (constant (F := Ideal) S2048x256 .f32 0x00000000#32) (ix2 r h)
      = ∑ k : Fin 256, L (ix2 r k) * R (ix2 k h) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r h) ((contrEquiv1 dot_S2048x256_S256x256_S2048x256_1_0_0_1_n_n 256 rfl rfl).symm k) = ix2 r k := funext fun a => Fin.ext (by
    match a with
    | ⟨0, _⟩ => exact lhs_proj256_0 _ _
    | ⟨1, _⟩ => exact (lhs_proj256_1 _ _).trans hk)
  have er : dot_S2048x256_S256x256_S2048x256_1_0_0_1_n_n.rhsIdx (ix2 r h) ((contrEquiv1 dot_S2048x256_S256x256_S2048x256_1_0_0_1_n_n 256 rfl rfl).symm k) = ix2 k h := funext fun a => Fin.ext (by
    match a with
    | ⟨0, _⟩ => exact (rhs_proj256_0 _ _).trans hk
    | ⟨1, _⟩ => exact rhs_proj256_1 _ _)
  rw [el, er]

theorem lhs_proj512_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs_proj512_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem rhs_proj512_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem rhs_proj512_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- A projection through a 512-column weight. Into the zero accumulator, at the ideal values. -/
theorem matmul_proj512 {φ₁ φ₂ : FTy} (L : FVec Ideal S2048x256 φ₁) (R : FVec Ideal S256x512 φ₂) (r : Fin 2048) (h : Fin 512) :
    matmul (F := Ideal) dot_S2048x256_S256x512_S2048x512_1_0_0_1_n_n none L R (constant (F := Ideal) S2048x512 .f32 0x00000000#32) (ix2 r h)
      = ∑ k : Fin 256, L (ix2 r k) * R (ix2 k h) := by
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 r h) ((contrEquiv1 dot_S2048x256_S256x512_S2048x512_1_0_0_1_n_n 256 rfl rfl).symm k) = ix2 r k := funext fun a => Fin.ext (by
    match a with
    | ⟨0, _⟩ => exact lhs_proj512_0 _ _
    | ⟨1, _⟩ => exact (lhs_proj512_1 _ _).trans hk)
  have er : dot_S2048x256_S256x512_S2048x512_1_0_0_1_n_n.rhsIdx (ix2 r h) ((contrEquiv1 dot_S2048x256_S256x512_S2048x512_1_0_0_1_n_n 256 rfl rfl).symm k) = ix2 k h := funext fun a => Fin.ext (by
    match a with
    | ⟨0, _⟩ => exact (rhs_proj512_0 _ _).trans hk
    | ⟨1, _⟩ => exact rhs_proj512_1 _ _)
  rw [el, er]

theorem lhs_qk_0 (i : S16x128x128.Idx) (q : dot_S16x128x512_S16x128x512_S16x128x128_2_2_1_1_0_0.contr.Idx) :
    (dot_S16x128x512_S16x128x512_S16x128x128_2_2_1_1_0_0.lhsIdx i q 0).val = (i 0).val := by
  unfold DotDims.lhsIdx
  rw [dif_pos (show (0 : Fin S16x128x512.rank) ∈ dot_S16x128x512_S16x128x512_S16x128x128_2_2_1_1_0_0.lhsBatch by decide)]
  rfl
theorem lhs_qk_1 (i : S16x128x128.Idx) (q : dot_S16x128x512_S16x128x512_S16x128x128_2_2_1_1_0_0.contr.Idx) :
    (dot_S16x128x512_S16x128x512_S16x128x128_2_2_1_1_0_0.lhsIdx i q 1).val = (i 1).val := by
  unfold DotDims.lhsIdx
  rw [dif_neg (show ¬(1 : Fin S16x128x512.rank) ∈ dot_S16x128x512_S16x128x512_S16x128x128_2_2_1_1_0_0.lhsBatch by decide), dif_pos (show (1 : Fin S16x128x512.rank) ∈ dot_S16x128x512_S16x128x512_S16x128x128_2_2_1_1_0_0.lhsNonContracting by decide)]
  rfl
theorem lhs_qk_2 (i : S16x128x128.Idx) (q : dot_S16x128x512_S16x128x512_S16x128x128_2_2_1_1_0_0.contr.Idx) :
    (dot_S16x128x512_S16x128x512_S16x128x128_2_2_1_1_0_0.lhsIdx i q 2).val = (q ⟨0, by decide⟩).val :=
  dot_S16x128x512_S16x128x512_S16x128x128_2_2_1_1_0_0.lhsIdx_val_of_single rfl i q
theorem rhs_qk_0 (i : S16x128x128.Idx) (q : dot_S16x128x512_S16x128x512_S16x128x128_2_2_1_1_0_0.contr.Idx) :
    (dot_S16x128x512_S16x128x512_S16x128x128_2_2_1_1_0_0.rhsIdx i q 0).val = (i 0).val := by
  unfold DotDims.rhsIdx
  rw [dif_pos (show (0 : Fin S16x128x512.rank) ∈ dot_S16x128x512_S16x128x512_S16x128x128_2_2_1_1_0_0.rhsBatch by decide)]
  rfl
theorem rhs_qk_1 (i : S16x128x128.Idx) (q : dot_S16x128x512_S16x128x512_S16x128x128_2_2_1_1_0_0.contr.Idx) :
    (dot_S16x128x512_S16x128x512_S16x128x128_2_2_1_1_0_0.rhsIdx i q 1).val = (i 2).val := by
  unfold DotDims.rhsIdx
  rw [dif_neg (show ¬(1 : Fin S16x128x512.rank) ∈ dot_S16x128x512_S16x128x512_S16x128x128_2_2_1_1_0_0.rhsBatch by decide), dif_pos (show (1 : Fin S16x128x512.rank) ∈ dot_S16x128x512_S16x128x512_S16x128x128_2_2_1_1_0_0.rhsNonContracting by decide)]
  rfl
theorem rhs_qk_2 (i : S16x128x128.Idx) (q : dot_S16x128x512_S16x128x512_S16x128x128_2_2_1_1_0_0.contr.Idx) :
    (dot_S16x128x512_S16x128x512_S16x128x128_2_2_1_1_0_0.rhsIdx i q 2).val = (q ⟨0, by decide⟩).val :=
  dot_S16x128x512_S16x128x512_S16x128x128_2_2_1_1_0_0.rhsIdx_val_of_single rfl i q

/-- Queries against keys within a batch row: entry (n, m) is Σ_k L n k · R m k. Into the zero accumulator, at the ideal values. -/
theorem matmul_qk {φ₁ φ₂ : FTy} (L : FVec Ideal S16x128x512 φ₁) (R : FVec Ideal S16x128x512 φ₂) (bb : Fin 16) (n m : Fin 128) :
    matmul (F := Ideal) dot_S16x128x512_S16x128x512_S16x128x128_2_2_1_1_0_0 none L R (constant (F := Ideal) S16x128x128 .f32 0x00000000#32) (ix3 bb n m)
      = ∑ k : Fin 512, L (ix3 bb n k) * R (ix3 bb m k) := by
  simp only [matmul]
  rw [Ideal.matmul_constant_zero_apply, ← Equiv.sum_comp (contrEquiv1 dot_S16x128x512_S16x128x512_S16x128x128_2_2_1_1_0_0 512 rfl rfl).symm]
  refine Finset.sum_congr rfl fun k _ => ?_
  have hk := contrEquiv1_symm_val dot_S16x128x512_S16x128x512_S16x128x128_2_2_1_1_0_0 512 rfl rfl k
  have el : dot_S16x128x512_S16x128x512_S16x128x128_2_2_1_1_0_0.lhsIdx (ix3 bb n m) ((contrEquiv1 dot_S16x128x512_S16x128x512_S16x128x128_2_2_1_1_0_0 512 rfl rfl).symm k) = ix3 bb n k := funext fun a => Fin.ext (by
    match a with
    | ⟨0, _⟩ => exact lhs_qk_0 _ _
    | ⟨1, _⟩ => exact lhs_qk_1 _ _
    | ⟨2, _⟩ => exact (lhs_qk_2 _ _).trans hk)
  have er : dot_S16x128x512_S16x128x512_S16x128x128_2_2_1_1_0_0.rhsIdx (ix3 bb n m) ((contrEquiv1 dot_S16x128x512_S16x128x512_S16x128x128_2_2_1_1_0_0 512 rfl rfl).symm k) = ix3 bb m k := funext fun a => Fin.ext (by
    match a with
    | ⟨0, _⟩ => exact rhs_qk_0 _ _
    | ⟨1, _⟩ => exact rhs_qk_1 _ _
    | ⟨2, _⟩ => exact (rhs_qk_2 _ _).trans hk)
  rw [el, er]

theorem lhs_av_0 (i : S16x128x256.Idx) (q : dot_S16x128x128_S16x128x256_S16x128x256_2_1_1_2_0_0.contr.Idx) :
    (dot_S16x128x128_S16x128x256_S16x128x256_2_1_1_2_0_0.lhsIdx i q 0).val = (i 0).val := by
  unfold DotDims.lhsIdx
  rw [dif_pos (show (0 : Fin S16x128x128.rank) ∈ dot_S16x128x128_S16x128x256_S16x128x256_2_1_1_2_0_0.lhsBatch by decide)]
  rfl
theorem lhs_av_1 (i : S16x128x256.Idx) (q : dot_S16x128x128_S16x128x256_S16x128x256_2_1_1_2_0_0.contr.Idx) :
    (dot_S16x128x128_S16x128x256_S16x128x256_2_1_1_2_0_0.lhsIdx i q 1).val = (i 1).val := by
  unfold DotDims.lhsIdx
  rw [dif_neg (show ¬(1 : Fin S16x128x128.rank) ∈ dot_S16x128x128_S16x128x256_S16x128x256_2_1_1_2_0_0.lhsBatch by decide), dif_pos (show (1 : Fin S16x128x128.rank) ∈ dot_S16x128x128_S16x128x256_S16x128x256_2_1_1_2_0_0.lhsNonContracting by decide)]
  rfl
theorem lhs_av_2 (i : S16x128x256.Idx) (q : dot_S16x128x128_S16x128x256_S16x128x256_2_1_1_2_0_0.contr.Idx) :
    (dot_S16x128x128_S16x128x256_S16x128x256_2_1_1_2_0_0.lhsIdx i q 2).val = (q ⟨0, by decide⟩).val :=
  dot_S16x128x128_S16x128x256_S16x128x256_2_1_1_2_0_0.lhsIdx_val_of_single rfl i q
theorem rhs_av_0 (i : S16x128x256.Idx) (q : dot_S16x128x128_S16x128x256_S16x128x256_2_1_1_2_0_0.contr.Idx) :
    (dot_S16x128x128_S16x128x256_S16x128x256_2_1_1_2_0_0.rhsIdx i q 0).val = (i 0).val := by
  unfold DotDims.rhsIdx
  rw [dif_pos (show (0 : Fin S16x128x256.rank) ∈ dot_S16x128x128_S16x128x256_S16x128x256_2_1_1_2_0_0.rhsBatch by decide)]
  rfl
theorem rhs_av_1 (i : S16x128x256.Idx) (q : dot_S16x128x128_S16x128x256_S16x128x256_2_1_1_2_0_0.contr.Idx) :
    (dot_S16x128x128_S16x128x256_S16x128x256_2_1_1_2_0_0.rhsIdx i q 1).val = (q ⟨0, by decide⟩).val :=
  dot_S16x128x128_S16x128x256_S16x128x256_2_1_1_2_0_0.rhsIdx_val_of_single rfl i q
theorem rhs_av_2 (i : S16x128x256.Idx) (q : dot_S16x128x128_S16x128x256_S16x128x256_2_1_1_2_0_0.contr.Idx) :
    (dot_S16x128x128_S16x128x256_S16x128x256_2_1_1_2_0_0.rhsIdx i q 2).val = (i 2).val := by
  unfold DotDims.rhsIdx
  rw [dif_neg (show ¬(2 : Fin S16x128x256.rank) ∈ dot_S16x128x128_S16x128x256_S16x128x256_2_1_1_2_0_0.rhsBatch by decide), dif_pos (show (2 : Fin S16x128x256.rank) ∈ dot_S16x128x128_S16x128x256_S16x128x256_2_1_1_2_0_0.rhsNonContracting by decide)]
  rfl

/-- Attention weights against values within a batch row: entry (n, h) is Σ_m L n m · R m h. Into the zero accumulator, at the ideal values. -/
theorem matmul_av {φ₁ φ₂ : FTy} (L : FVec Ideal S16x128x128 φ₁) (R : FVec Ideal S16x128x256 φ₂) (bb : Fin 16) (n : Fin 128) (h : Fin 256) :
    matmul (F := Ideal) dot_S16x128x128_S16x128x256_S16x128x256_2_1_1_2_0_0 none L R (constant (F := Ideal) S16x128x256 .f32 0x00000000#32) (ix3 bb n h)
      = ∑ k : Fin 128, L (ix3 bb n k) * R (ix3 bb k h) := by
  simp only [matmul]
  rw [Ideal.matmul_constant_zero_apply, ← Equiv.sum_comp (contrEquiv1 dot_S16x128x128_S16x128x256_S16x128x256_2_1_1_2_0_0 128 rfl rfl).symm]
  refine Finset.sum_congr rfl fun k _ => ?_
  have hk := contrEquiv1_symm_val dot_S16x128x128_S16x128x256_S16x128x256_2_1_1_2_0_0 128 rfl rfl k
  have el : dot_S16x128x128_S16x128x256_S16x128x256_2_1_1_2_0_0.lhsIdx (ix3 bb n h) ((contrEquiv1 dot_S16x128x128_S16x128x256_S16x128x256_2_1_1_2_0_0 128 rfl rfl).symm k) = ix3 bb n k := funext fun a => Fin.ext (by
    match a with
    | ⟨0, _⟩ => exact lhs_av_0 _ _
    | ⟨1, _⟩ => exact lhs_av_1 _ _
    | ⟨2, _⟩ => exact (lhs_av_2 _ _).trans hk)
  have er : dot_S16x128x128_S16x128x256_S16x128x256_2_1_1_2_0_0.rhsIdx (ix3 bb n h) ((contrEquiv1 dot_S16x128x128_S16x128x256_S16x128x256_2_1_1_2_0_0 128 rfl rfl).symm k) = ix3 bb k h := funext fun a => Fin.ext (by
    match a with
    | ⟨0, _⟩ => exact rhs_av_0 _ _
    | ⟨1, _⟩ => exact (rhs_av_1 _ _).trans hk
    | ⟨2, _⟩ => exact rhs_av_2 _ _)
  rw [el, er]

/-! ## Reductions along the last axis -/

/-- A row's maximum: the fold of `max` from the accumulator's word over the row's 128 columns. -/
theorem rowMaxRed (src : FVec Ideal S16x128x128 .f32) (h : S16x128x128.Reduces [2] S16x128) (hφ : FKind.Formats .f32)
    (hacc : (0xFF800000#32 : BitVec 32) = FKind.maximumf.neutral .f32 hφ) (bb : Fin 16) (n : Fin 128) :
    multiReduction (F := Ideal) .maximumf [2] S16x128 src 0xFF800000#32 h hφ hacc (ix2 bb n)
      = (Finset.univ : Finset (Fin 128)).fold max (Ideal.ofBits .f32 0xFF800000#32) (fun m => src (ix3 bb n m)) := by
  rw [Ideal.multiReduction_maximumf_single]
  have e : (src ∘ h.lift (ix2 bb n)) = fun m : Fin 128 => src (ix3 bb n m) := funext fun m => congrArg src
    (funext fun a => Fin.ext (by match a with | ⟨0, _⟩ => rfl | ⟨1, _⟩ => rfl | ⟨2, _⟩ => rfl))
  rw [e]
  rfl

/-- A row's sum over its 128 columns. -/
theorem rowSumRed (src : FVec Ideal S16x128x128 .f32) (h : S16x128x128.Reduces [2] S16x128) (hφ : FKind.Formats .f32)
    (hacc : (0x00000000#32 : BitVec 32) = FKind.add.neutral .f32 hφ) (bb : Fin 16) (n : Fin 128) :
    multiReduction (F := Ideal) .add [2] S16x128 src 0x00000000#32 h hφ hacc (ix2 bb n)
      = ∑ m : Fin 128, src (ix3 bb n m) := by
  rw [Ideal.multiReduction_add_single]
  exact Finset.sum_congr rfl fun m _ => congrArg src
    (funext fun a => Fin.ext (by match a with | ⟨0, _⟩ => rfl | ⟨1, _⟩ => rfl | ⟨2, _⟩ => rfl))

end Cert.KernelOps

end
-- ==== Proof.KernelPayload.lean ====
/-
  What the kernel body writes for one block of 16 batch rows is the specification on each of them.

  The body's arithmetic is six pure terms of the loaded blocks: the flattened activations, the value
  projection, the scores (two projections and their inner products), the softmax of the masked scores,
  and the output (the mixture, flattened, projected, rectified, unflattened). Each is read here at an
  index (batch row bb of the block, row n, a column) and shown to be the specification's stage on
  that batch row. The softmax is read for arbitrary logits first, so its term is opened once.
-/
import proofs.«114450_j47141561040904_1_alg».proof.Proof.Gen.KernelIdeal.Skeleton
import proofs.«114450_j47141561040904_1_alg».proof.Proof.KernelOps
import proofs.«114450_j47141561040904_1_alg».proof.Proof.AttnSpec

noncomputable section

namespace Cert.KernelPayload

open Cert.KernelIdeal Cert.KernelIdeal.Gen Cert.KernelOps Cert.AttnSpec
open Idealize.ShloMosaic Idealize.ShloMosaic.ValueIdx

/-- The exponential of a vector, at an index. -/
theorem exp_apply {s : Shape} {φ : FTy} (a : FVec Ideal s φ) (i : s.Idx) : exp a i = Ideal.exp (a i) := rfl

/-! ## A projection of 2048 flat rows, unflattened -/

/-- Multiply the flat rows by a 256-column weight, add the bias, rectify, unflatten: batch row bb is the
    dense layer of that batch row's 128 flat rows. -/
theorem denseFlat256 {φ₁ φ₂ : FTy} (X : FVec Ideal S2048x256 φ₁) (W : FVec Ideal S256x256 φ₂) (bvec : Vec Ideal S256 .f32)
    (h1 : S256.ShapeCasts S1x256) (h2 : S1x256.Broadcasts S2048x256) (h3 : S2048x256.ShapeCasts S16x128x256)
    (bb : Fin 16) (n : Fin 128) (h : Fin 256) :
    shapeCast S16x128x256 (maximumf (addf (matmul (F := Ideal) dot_S2048x256_S256x256_S2048x256_1_0_0_1_n_n none X W
        (constant (F := Ideal) S2048x256 .f32 0x00000000#32)) (broadcastTo S2048x256 (shapeCast S1x256 bvec h1) h2))
        (broadcast S2048x256 (Scalar.ofBits (F := Ideal) .f32 0x00000000#32))) h3 (ix3 bb n h)
      = dense (fun n' d => X (ix2 (rowOf bb n') d)) (mat2 W) (vec1 bvec) n h := by
  refine (unflatten_apply (C := 256) _ h3 bb n h).trans ?_
  rw [maximumf_apply, addf_apply, matmul_proj256, biasRow256, broadcast_apply]
  rfl

/-- The same through a 512-column weight. -/
theorem denseFlat512 {φ₁ φ₂ : FTy} (X : FVec Ideal S2048x256 φ₁) (W : FVec Ideal S256x512 φ₂) (bvec : Vec Ideal S512 .f32)
    (h1 : S512.ShapeCasts S1x512) (h2 : S1x512.Broadcasts S2048x512) (h3 : S2048x512.ShapeCasts S16x128x512)
    (bb : Fin 16) (n : Fin 128) (h : Fin 512) :
    shapeCast S16x128x512 (maximumf (addf (matmul (F := Ideal) dot_S2048x256_S256x512_S2048x512_1_0_0_1_n_n none X W
        (constant (F := Ideal) S2048x512 .f32 0x00000000#32)) (broadcastTo S2048x512 (shapeCast S1x512 bvec h1) h2))
        (broadcast S2048x512 (Scalar.ofBits (F := Ideal) .f32 0x00000000#32))) h3 (ix3 bb n h)
      = dense (fun n' d => X (ix2 (rowOf bb n') d)) (mat2 W) (vec1 bvec) n h := by
  refine (unflatten_apply (C := 512) _ h3 bb n h).trans ?_
  rw [maximumf_apply, addf_apply, matmul_proj512, biasRow512, broadcast_apply]
  rfl

/-! ## The softmax of a block of logits -/

/-- The exponentials, shifted by the row maximum. -/
theorem expShift (L : FVec Ideal S16x128x128 .f32) (hr : S16x128x128.Reduces [2] S16x128) (hφ : FKind.Formats .f32)
    (hacc : (0xFF800000#32 : BitVec 32) = FKind.maximumf.neutral .f32 hφ)
    (h1 : S16x128.ShapeCasts S16x128x1) (h2 : S16x128x1.Broadcasts S16x128x128) (bb : Fin 16) (n m : Fin 128) :
    exp (subf L (broadcastTo S16x128x128 (shapeCast S16x128x1 (maximumf (broadcast S16x128 (Scalar.ofBits (F := Ideal) .f32 0xFF800000#32))
        (multiReduction (F := Ideal) .maximumf [2] S16x128 L 0xFF800000#32 hr hφ hacc)) h1) h2)) (ix3 bb n m)
      = expo (row3 L bb) n m := by
  rw [exp_apply, subf_apply, perRow_apply, maximumf_apply, broadcast_apply, rowMaxRed]
  rfl

/-- Each exponential over its row's sum. -/
theorem quotBlock (bb : Fin 16) (E : FVec Ideal S16x128x128 .f32) (e : Fin 128 → Fin 128 → EReal)
    (hE : ∀ n m : Fin 128, E (ix3 bb n m) = e n m)
    (hr : S16x128x128.Reduces [2] S16x128) (hφ : FKind.Formats .f32)
    (hacc : (0x00000000#32 : BitVec 32) = FKind.add.neutral .f32 hφ)
    (h1 : S16x128.ShapeCasts S16x128x1) (h2 : S16x128x1.Broadcasts S16x128x128) (n m : Fin 128) :
    divf E (broadcastTo S16x128x128 (shapeCast S16x128x1
        (multiReduction (F := Ideal) .add [2] S16x128 E 0x00000000#32 hr hφ hacc) h1) h2) (ix3 bb n m)
      = Ideal.div (e n m) (∑ m' : Fin 128, e n m') := by
  rw [divf_apply, perRow_apply, rowSumRed, hE]
  simp only [hE]

/-! ## The payloads -/

/-- The flattened activations: flat row `bb·128 + n` is row n of batch row bb. -/
theorem pay3_apply (v0 : Vec Ideal S16x128x256 .f32) (bb : Fin 16) (n : Fin 128) (d : Fin 256) :
    k0_pay3 (F := Ideal) v0 (ix2 (rowOf bb n) d) = v0 (ix3 bb n d) := by
  unfold k0_pay3
  exact flatten_apply (C := 256) _ _ bb n d

theorem pay3_rows (v0 : Vec Ideal S16x128x256 .f32) (bb : Fin 16) :
    (fun (n' : Fin 128) (d : Fin 256) => k0_pay3 (F := Ideal) v0 (ix2 (rowOf bb n') d)) = row3 v0 bb :=
  funext fun n' => funext fun d => pay3_apply v0 bb n' d

/-- The value projection of the block. -/
theorem pay5_apply (v0 : Vec Ideal S16x128x256 .f32) (v3 : Vec Ideal S256x256 .f32) (v12 : Vec Ideal S256 .f32)
    (bb : Fin 16) (n : Fin 128) (h : Fin 256) :
    k0_pay5 (F := Ideal) v0 v3 v12 (ix3 bb n h) = dense (row3 v0 bb) (mat2 v3) (vec1 v12) n h := by
  unfold k0_pay5
  refine (denseFlat256 _ _ _ _ _ _ bb n h).trans ?_
  rw [pay3_rows]
  rfl

/-- The scores of the block: the query and key projections, then their inner products within a batch row. -/
theorem pay6_apply (v0 : Vec Ideal S16x128x256 .f32) (v5 v7 : Vec Ideal S256x512 .f32) (v20 v28 : Vec Ideal S512 .f32)
    (bb : Fin 16) (n m : Fin 128) :
    k0_pay6 (F := Ideal) v0 v5 v7 v20 v28 (ix3 bb n m)
      = scores (dense (row3 v0 bb) (mat2 v5) (vec1 v20)) (dense (row3 v0 bb) (mat2 v7) (vec1 v28)) n m := by
  unfold k0_pay6
  rw [matmul_qk]
  unfold scores
  refine Finset.sum_congr rfl fun k _ => ?_
  refine congrArg₂ (· * ·) ?_ ?_
  · refine (denseFlat512 _ _ _ _ _ _ bb n k).trans ?_
    rw [pay3_rows]
    rfl
  · refine (denseFlat512 _ _ _ _ _ _ bb m k).trans ?_
    rw [pay3_rows]
    rfl

/-- The softmax of the masked scores of the block, for any scores `s`. -/
theorem pay1_apply (s : FVec Ideal S16x128x128 .f32) (mk : Vec Ideal S16x128x128 .f32) (bb : Fin 16) (n m : Fin 128) :
    k0_pay1 (F := Ideal) s mk (ix3 bb n m) = softmax (logits (row3 s bb) (row3 mk bb)) n m := by
  unfold k0_pay1
  exact quotBlock bb _ _ (fun n' m' => expShift _ _ _ _ _ _ bb n' m') _ _ _ _ _ n m

/-- The output of the block, for any scores `s` and values `v18`. -/
theorem pay2_apply (v10 : FVec Ideal S256x256 .bf16) (v18 : FVec Ideal S16x128x256 .f32) (s : FVec Ideal S16x128x128 .f32)
    (mk : Vec Ideal S16x128x128 .f32) (v62 : Vec Ideal S256 .f32) (bb : Fin 16) (n : Fin 128) (d : Fin 256) :
    k0_pay2 (F := Ideal) v10 v18 s mk v62 (ix3 bb n d)
      = dense (mix (softmax (logits (row3 s bb) (row3 mk bb))) (row3 v18 bb)) (mat2 v10) (vec1 v62) n d := by
  unfold k0_pay2
  refine (denseFlat256 _ _ _ _ _ _ bb n d).trans ?_
  refine congrArg (fun x => dense x (mat2 v10) (vec1 v62) n d) (funext fun n' => funext fun d' => ?_)
  refine (flatten_apply (C := 256) _ _ bb n' d').trans ?_
  rw [truncf_apply, matmul_av]
  unfold mix
  refine Finset.sum_congr rfl fun m _ => ?_
  rw [truncf_apply, truncf_apply, pay1_apply]

/-! ## The two stores of the body, on batch row bb of the block -/

/-- The attention block the body stores. -/
theorem att_block (P0 : Vec Ideal S16x128x256 .f32) (P1 : Vec Ideal S16x128x128 .f32) (P4 P6 : Vec Ideal S256x512 .f32)
    (P5 P7 : Vec Ideal S512 .f32) (bb : Fin 16) (n m : Fin 128) :
    k0_pay1 (F := Ideal) (k0_pay6 P0 P4 P6 P5 P7) P1 (ix3 bb n m)
      = attRow (row3 P0 bb) (row3 P1 bb) (mat2 P4) (vec1 P5) (mat2 P6) (vec1 P7) n m := by
  rw [pay1_apply]
  have e : row3 (k0_pay6 (F := Ideal) P0 P4 P6 P5 P7) bb
      = scores (dense (row3 P0 bb) (mat2 P4) (vec1 P5)) (dense (row3 P0 bb) (mat2 P6) (vec1 P7)) :=
    funext fun n' => funext fun m' => pay6_apply P0 P4 P6 P5 P7 bb n' m'
  rw [e]
  rfl

/-- The output block the body stores. -/
theorem out_block (P0 : Vec Ideal S16x128x256 .f32) (P1 : Vec Ideal S16x128x128 .f32) (P2 : Vec Ideal S256x256 .f32)
    (P3 : Vec Ideal S256 .f32) (P4 P6 : Vec Ideal S256x512 .f32) (P5 P7 : Vec Ideal S512 .f32)
    (P8 : Vec Ideal S256x256 .f32) (P9 : Vec Ideal S256 .f32) (bb : Fin 16) (n : Fin 128) (d : Fin 256) :
    k0_pay2 (F := Ideal) (k0_pay4 P8) (k0_pay5 P0 P2 P3) (k0_pay6 P0 P4 P6 P5 P7) P1 P9 (ix3 bb n d)
      = outRow (row3 P0 bb) (row3 P1 bb) (mat2 P2) (vec1 P3) (mat2 P4) (vec1 P5) (mat2 P6) (vec1 P7)
          (mat2 P8) (vec1 P9) n d := by
  rw [pay2_apply]
  have e : row3 (k0_pay6 (F := Ideal) P0 P4 P6 P5 P7) bb
      = scores (dense (row3 P0 bb) (mat2 P4) (vec1 P5)) (dense (row3 P0 bb) (mat2 P6) (vec1 P7)) :=
    funext fun n' => funext fun m' => pay6_apply P0 P4 P6 P5 P7 bb n' m'
  have ev : row3 (k0_pay5 (F := Ideal) P0 P2 P3) bb = dense (row3 P0 bb) (mat2 P2) (vec1 P3) :=
    funext fun n' => funext fun h => pay5_apply P0 P2 P3 bb n' h
  rw [e, ev]
  rfl

end Cert.KernelPayload

end
-- ==== Proof.KernelArray.lean ====
/-
  From blocks to arrays: what the kernel leaves in its two result arrays.

  The grid has 64 points; point t stages batch rows 16t … 16t + 15 of the activations and of the mask,
  the whole of every weight and bias, and writes back batch rows 16t … 16t + 15 of both results. So
  what point t writes back is block t of the specification's arrays of the argument arrays, the 64
  blocks cover both result arrays, and after the run each result array is the specification's.
  The facts about the printed index maps are decided once over the 64 points.
-/
import proofs.«114450_j47141561040904_1_alg».proof.Proof.Gen.KernelIdeal.Value
import proofs.«114450_j47141561040904_1_alg».proof.Proof.KernelPayload

noncomputable section

namespace Cert.KernelArray

open Cert.KernelIdeal Cert.KernelIdeal.Gen Cert.KernelIdeal.Value Cert.KernelPayload Cert.AttnSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the activations, the mask and the two results move with the
    point along the batch axis; every weight and bias stays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 3) = t.val ∧ win0_10.index t (1 : Fin 3) = 0 ∧ win0_10.index t (2 : Fin 3) = 0
    ∧ win0_11.index t (0 : Fin 3) = t.val ∧ win0_11.index t (1 : Fin 3) = 0 ∧ win0_11.index t (2 : Fin 3) = 0 :=
  (by decide +kernel : ∀ t : Fin grid0.N, _)

/-- The batch row of the arrays that row `bb` of point t's blocks is: `16·t + bb`. -/
def batchOf (t : Fin cfg0.N) (bb : Fin 16) : Fin 1024 :=
  ⟨16 * t.val + bb.val, by
    have h : t.val < 64 := lt_of_lt_of_eq t.isLt N_0
    have := bb.isLt
    omega⟩

/-! ## The input blocks as parts of the arrays -/

/-- Point t's block of the activations is batch rows 16t … 16t + 15 of the array. -/
theorem iblk0_apply (c : Dev nD) (t : Fin cfg0.N) (bb : Fin 16) (n : Fin 128) (d : Fin 256) :
    (iblk m c 0 t : Vec Ideal S16x128x256 .f32) (ix3 bb n d)
      = (V m c main_arg0 : S1024x128x256.Idx → EReal) (ix3 (batchOf t bb) n d) := by
  obtain ⟨e0_0, e0_1, e0_2, e1_0, e1_1, e1_2, e2_0, e2_1, e3_0, e4_0, e4_1, e5_0, e6_0, e6_1, e7_0, e8_0, e8_1, e9_0, e10_0, e10_1, e10_2, e11_0, e11_1, e11_2⟩ := idx_facts t
  unfold iblk
  rw [View.read_apply]
  show V m c main_arg0 _ = V m c main_arg0 _
  congr 1
  funext a
  apply Fin.ext
  match a with
  | ⟨0, _⟩ => show win0_0.index t (0 : Fin 3) * 16 + 1 * bb.val = 16 * t.val + bb.val; omega
  | ⟨1, _⟩ => show win0_0.index t (1 : Fin 3) * 128 + 1 * n.val = n.val; omega
  | ⟨2, _⟩ => show win0_0.index t (2 : Fin 3) * 256 + 1 * d.val = d.val; omega

theorem iblk0_row (c : Dev nD) (t : Fin cfg0.N) (bb : Fin 16) :
    row3 (iblk m c 0 t : Vec Ideal S16x128x256 .f32) bb
      = row3 (V m c main_arg0 : S1024x128x256.Idx → EReal) (batchOf t bb) :=
  funext fun n => funext fun d => iblk0_apply m c t bb n d

/-- Point t's block of the mask likewise. -/
theorem iblk1_apply (c : Dev nD) (t : Fin cfg0.N) (bb : Fin 16) (n k : Fin 128) :
    (iblk m c 1 t : Vec Ideal S16x128x128 .f32) (ix3 bb n k)
      = (V m c main_arg1 : S1024x128x128.Idx → EReal) (ix3 (batchOf t bb) n k) := by
  obtain ⟨e0_0, e0_1, e0_2, e1_0, e1_1, e1_2, e2_0, e2_1, e3_0, e4_0, e4_1, e5_0, e6_0, e6_1, e7_0, e8_0, e8_1, e9_0, e10_0, e10_1, e10_2, e11_0, e11_1, e11_2⟩ := idx_facts t
  unfold iblk
  rw [View.read_apply]
  show V m c main_arg1 _ = V m c main_arg1 _
  congr 1
  funext a
  apply Fin.ext
  match a with
  | ⟨0, _⟩ => show win0_1.index t (0 : Fin 3) * 16 + 1 * bb.val = 16 * t.val + bb.val; omega
  | ⟨1, _⟩ => show win0_1.index t (1 : Fin 3) * 128 + 1 * n.val = n.val; omega
  | ⟨2, _⟩ => show win0_1.index t (2 : Fin 3) * 128 + 1 * k.val = k.val; omega

theorem iblk1_row (c : Dev nD) (t : Fin cfg0.N) (bb : Fin 16) :
    row3 (iblk m c 1 t : Vec Ideal S16x128x128 .f32) bb
      = row3 (V m c main_arg1 : S1024x128x128.Idx → EReal) (batchOf t bb) :=
  funext fun n => funext fun k => iblk1_apply m c t bb n k

/-- Window 2 stages its whole array at every point. -/
theorem iblk2_eq (c : Dev nD) (t : Fin cfg0.N) :
    (iblk m c 2 t : Vec Ideal S256x256 .f32) = (V m c main_arg2 : S256x256.Idx → EReal) := by
  obtain ⟨e0_0, e0_1, e0_2, e1_0, e1_1, e1_2, e2_0, e2_1, e3_0, e4_0, e4_1, e5_0, e6_0, e6_1, e7_0, e8_0, e8_1, e9_0, e10_0, e10_1, e10_2, e11_0, e11_1, e11_2⟩ := idx_facts t
  funext y
  unfold iblk
  rw [View.read_apply]
  show V m c main_arg2 _ = V m c main_arg2 _
  congr 1
  funext a
  apply Fin.ext
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- Window 3 stages its whole array at every point. -/
theorem iblk3_eq (c : Dev nD) (t : Fin cfg0.N) :
    (iblk m c 3 t : Vec Ideal S256 .f32) = (V m c main_arg3 : S256.Idx → EReal) := by
  obtain ⟨e0_0, e0_1, e0_2, e1_0, e1_1, e1_2, e2_0, e2_1, e3_0, e4_0, e4_1, e5_0, e6_0, e6_1, e7_0, e8_0, e8_1, e9_0, e10_0, e10_1, e10_2, e11_0, e11_1, e11_2⟩ := idx_facts t
  funext y
  unfold iblk
  rw [View.read_apply]
  show V m c main_arg3 _ = V m c main_arg3 _
  congr 1
  funext a
  apply Fin.ext
  match a with
  | ⟨0, _⟩ => show win0_3.index t (0 : Fin 1) * 256 + 1 * (y 0).val = (y 0).val; omega

/-- Window 4 stages its whole array at every point. -/
theorem iblk4_eq (c : Dev nD) (t : Fin cfg0.N) :
    (iblk m c 4 t : Vec Ideal S256x512 .f32) = (V m c main_arg4 : S256x512.Idx → EReal) := by
  obtain ⟨e0_0, e0_1, e0_2, e1_0, e1_1, e1_2, e2_0, e2_1, e3_0, e4_0, e4_1, e5_0, e6_0, e6_1, e7_0, e8_0, e8_1, e9_0, e10_0, e10_1, e10_2, e11_0, e11_1, e11_2⟩ := idx_facts t
  funext y
  unfold iblk
  rw [View.read_apply]
  show V m c main_arg4 _ = V m c main_arg4 _
  congr 1
  funext a
  apply Fin.ext
  match a with
  | ⟨0, _⟩ => show win0_4.index t (0 : Fin 2) * 256 + 1 * (y 0).val = (y 0).val; omega
  | ⟨1, _⟩ => show win0_4.index t (1 : Fin 2) * 512 + 1 * (y 1).val = (y 1).val; omega

/-- Window 5 stages its whole array at every point. -/
theorem iblk5_eq (c : Dev nD) (t : Fin cfg0.N) :
    (iblk m c 5 t : Vec Ideal S512 .f32) = (V m c main_arg5 : S512.Idx → EReal) := by
  obtain ⟨e0_0, e0_1, e0_2, e1_0, e1_1, e1_2, e2_0, e2_1, e3_0, e4_0, e4_1, e5_0, e6_0, e6_1, e7_0, e8_0, e8_1, e9_0, e10_0, e10_1, e10_2, e11_0, e11_1, e11_2⟩ := idx_facts t
  funext y
  unfold iblk
  rw [View.read_apply]
  show V m c main_arg5 _ = V m c main_arg5 _
  congr 1
  funext a
  apply Fin.ext
  match a with
  | ⟨0, _⟩ => show win0_5.index t (0 : Fin 1) * 512 + 1 * (y 0).val = (y 0).val; omega

/-- Window 6 stages its whole array at every point. -/
theorem iblk6_eq (c : Dev nD) (t : Fin cfg0.N) :
    (iblk m c 6 t : Vec Ideal S256x512 .f32) = (V m c main_arg6 : S256x512.Idx → EReal) := by
  obtain ⟨e0_0, e0_1, e0_2, e1_0, e1_1, e1_2, e2_0, e2_1, e3_0, e4_0, e4_1, e5_0, e6_0, e6_1, e7_0, e8_0, e8_1, e9_0, e10_0, e10_1, e10_2, e11_0, e11_1, e11_2⟩ := idx_facts t
  funext y
  unfold iblk
  rw [View.read_apply]
  show V m c main_arg6 _ = V m c main_arg6 _
  congr 1
  funext a
  apply Fin.ext
  match a with
  | ⟨0, _⟩ => show win0_6.index t (0 : Fin 2) * 256 + 1 * (y 0).val = (y 0).val; omega
  | ⟨1, _⟩ => show win0_6.index t (1 : Fin 2) * 512 + 1 * (y 1).val = (y 1).val; omega

/-- Window 7 stages its whole array at every point. -/
theorem iblk7_eq (c : Dev nD) (t : Fin cfg0.N) :
    (iblk m c 7 t : Vec Ideal S512 .f32) = (V m c main_arg7 : S512.Idx → EReal) := by
  obtain ⟨e0_0, e0_1, e0_2, e1_0, e1_1, e1_2, e2_0, e2_1, e3_0, e4_0, e4_1, e5_0, e6_0, e6_1, e7_0, e8_0, e8_1, e9_0, e10_0, e10_1, e10_2, e11_0, e11_1, e11_2⟩ := idx_facts t
  funext y
  unfold iblk
  rw [View.read_apply]
  show V m c main_arg7 _ = V m c main_arg7 _
  congr 1
  funext a
  apply Fin.ext
  match a with
  | ⟨0, _⟩ => show win0_7.index t (0 : Fin 1) * 512 + 1 * (y 0).val = (y 0).val; omega

/-- Window 8 stages its whole array at every point. -/
theorem iblk8_eq (c : Dev nD) (t : Fin cfg0.N) :
    (iblk m c 8 t : Vec Ideal S256x256 .f32) = (V m c main_arg8 : S256x256.Idx → EReal) := by
  obtain ⟨e0_0, e0_1, e0_2, e1_0, e1_1, e1_2, e2_0, e2_1, e3_0, e4_0, e4_1, e5_0, e6_0, e6_1, e7_0, e8_0, e8_1, e9_0, e10_0, e10_1, e10_2, e11_0, e11_1, e11_2⟩ := idx_facts t
  funext y
  unfold iblk
  rw [View.read_apply]
  show V m c main_arg8 _ = V m c main_arg8 _
  congr 1
  funext a
  apply Fin.ext
  match a with
  | ⟨0, _⟩ => show win0_8.index t (0 : Fin 2) * 256 + 1 * (y 0).val = (y 0).val; omega
  | ⟨1, _⟩ => show win0_8.index t (1 : Fin 2) * 256 + 1 * (y 1).val = (y 1).val; omega

/-- Window 9 stages its whole array at every point. -/
theorem iblk9_eq (c : Dev nD) (t : Fin cfg0.N) :
    (iblk m c 9 t : Vec Ideal S256 .f32) = (V m c main_arg9 : S256.Idx → EReal) := by
  obtain ⟨e0_0, e0_1, e0_2, e1_0, e1_1, e1_2, e2_0, e2_1, e3_0, e4_0, e4_1, e5_0, e6_0, e6_1, e7_0, e8_0, e8_1, e9_0, e10_0, e10_1, e10_2, e11_0, e11_1, e11_2⟩ := idx_facts t
  funext y
  unfold iblk
  rw [View.read_apply]
  show V m c main_arg9 _ = V m c main_arg9 _
  congr 1
  funext a
  apply Fin.ext
  match a with
  | ⟨0, _⟩ => show win0_9.index t (0 : Fin 1) * 256 + 1 * (y 0).val = (y 0).val; omega

/-! ## What each point writes back -/

/-- The attention array of the argument arrays as the region finds them. -/
abbrev attOf (c : Dev nD) : S1024x128x128.Idx → EReal :=
  attArr (V m c main_arg0 : S1024x128x256.Idx → EReal) (V m c main_arg1 : S1024x128x128.Idx → EReal)
    (V m c main_arg4 : S256x512.Idx → EReal) (V m c main_arg5 : S512.Idx → EReal)
    (V m c main_arg6 : S256x512.Idx → EReal) (V m c main_arg7 : S512.Idx → EReal)

/-- The output array of the argument arrays as the region finds them. -/
abbrev outOf (c : Dev nD) : S1024x128x256.Idx → EReal :=
  outArr (V m c main_arg0 : S1024x128x256.Idx → EReal) (V m c main_arg1 : S1024x128x128.Idx → EReal)
    (V m c main_arg2 : S256x256.Idx → EReal) (V m c main_arg3 : S256.Idx → EReal)
    (V m c main_arg4 : S256x512.Idx → EReal) (V m c main_arg5 : S512.Idx → EReal)
    (V m c main_arg6 : S256x512.Idx → EReal) (V m c main_arg7 : S512.Idx → EReal)
    (V m c main_arg8 : S256x256.Idx → EReal) (V m c main_arg9 : S256.Idx → EReal)

/-- The attention block point t computes, at a block index, is the attention array at the index under it. -/
theorem att_point (c : Dev nD) (t : Fin cfg0.N) (y : S16x128x128.Idx) :
    k0_pay1 (F := Ideal) (k0_pay6 (iblk m c 0 t) (iblk m c 4 t) (iblk m c 6 t) (iblk m c 5 t) (iblk m c 7 t)) (iblk m c 1 t) y
      = attOf m c (((cfg0.win 11).blk t).view.emb y) := by
  obtain ⟨e0_0, e0_1, e0_2, e1_0, e1_1, e1_2, e2_0, e2_1, e3_0, e4_0, e4_1, e5_0, e6_0, e6_1, e7_0, e8_0, e8_1, e9_0, e10_0, e10_1, e10_2, e11_0, e11_1, e11_2⟩ := idx_facts t
  obtain ⟨bb, n, k, rfl⟩ : ∃ (bb : Fin 16) (n k : Fin 128), y = ix3 bb n k := ⟨y 0, y 1, y 2, eq_ix3 y⟩
  have hi : ((cfg0.win 11).blk t).view.emb (ix3 bb n k) = (ix3 (batchOf t bb) n k : S1024x128x128.Idx) := by
    funext a
    apply Fin.ext
    match a with
    | ⟨0, _⟩ => show win0_11.index t (0 : Fin 3) * 16 + 1 * bb.val = 16 * t.val + bb.val; omega
    | ⟨1, _⟩ => show win0_11.index t (1 : Fin 3) * 128 + 1 * n.val = n.val; omega
    | ⟨2, _⟩ => show win0_11.index t (2 : Fin 3) * 128 + 1 * k.val = k.val; omega
  rw [hi]
  refine (att_block (iblk m c 0 t) (iblk m c 1 t) (iblk m c 4 t) (iblk m c 6 t) (iblk m c 5 t) (iblk m c 7 t) bb n k).trans ?_
  rw [iblk0_row m c t bb, iblk1_row m c t bb, iblk4_eq m c t, iblk5_eq m c t, iblk6_eq m c t, iblk7_eq m c t]
  rfl

/-- The output block point t computes, at a block index, is the output array at the index under it. -/
theorem out_point (c : Dev nD) (t : Fin cfg0.N) (y : S16x128x256.Idx) :
    k0_pay2 (F := Ideal) (k0_pay4 (iblk m c 8 t)) (k0_pay5 (iblk m c 0 t) (iblk m c 2 t) (iblk m c 3 t))
        (k0_pay6 (iblk m c 0 t) (iblk m c 4 t) (iblk m c 6 t) (iblk m c 5 t) (iblk m c 7 t)) (iblk m c 1 t) (iblk m c 9 t) y
      = outOf m c (((cfg0.win 10).blk t).view.emb y) := by
  obtain ⟨e0_0, e0_1, e0_2, e1_0, e1_1, e1_2, e2_0, e2_1, e3_0, e4_0, e4_1, e5_0, e6_0, e6_1, e7_0, e8_0, e8_1, e9_0, e10_0, e10_1, e10_2, e11_0, e11_1, e11_2⟩ := idx_facts t
  obtain ⟨bb, n, d, rfl⟩ : ∃ (bb : Fin 16) (n : Fin 128) (d : Fin 256), y = ix3 bb n d := ⟨y 0, y 1, y 2, eq_ix3 y⟩
  have hi : ((cfg0.win 10).blk t).view.emb (ix3 bb n d) = (ix3 (batchOf t bb) n d : S1024x128x256.Idx) := by
    funext a
    apply Fin.ext
    match a with
    | ⟨0, _⟩ => show win0_10.index t (0 : Fin 3) * 16 + 1 * bb.val = 16 * t.val + bb.val; omega
    | ⟨1, _⟩ => show win0_10.index t (1 : Fin 3) * 128 + 1 * n.val = n.val; omega
    | ⟨2, _⟩ => show win0_10.index t (2 : Fin 3) * 256 + 1 * d.val = d.val; omega
  rw [hi]
  refine (out_block (iblk m c 0 t) (iblk m c 1 t) (iblk m c 2 t) (iblk m c 3 t) (iblk m c 4 t) (iblk m c 6 t)
    (iblk m c 5 t) (iblk m c 7 t) (iblk m c 8 t) (iblk m c 9 t) bb n d).trans ?_
  rw [iblk0_row m c t bb, iblk1_row m c t bb, iblk2_eq m c t, iblk3_eq m c t, iblk4_eq m c t, iblk5_eq m c t,
    iblk6_eq m c t, iblk7_eq m c t, iblk8_eq m c t, iblk9_eq m c t]
  rfl

/-- What point t writes back to the attention array is block t of the specification's array. -/
theorem flushed11_eq (c : Dev nD) (t : Fin cfg0.N) :
    (dats m 0 c).flushed 11 t = ((cfg0.win 11).blk t).view.read (Elt Ideal) (attOf m c) := by
  rw [Value.flushed11]
  unfold out0_11
  rw [View.canon_unit_zero hz3]
  simp only [View.ld_unit_zero (S := S16x128x256) hz3, View.ld_unit_zero (S := S16x128x128) hz3,
    View.ld_unit_zero (S := S256x512) hz2, View.ld_unit_zero (S := S512) hz1]
  funext y
  exact att_point m c t y

/-- What point t writes back to the output array is block t of the specification's array. -/
theorem flushed10_eq (c : Dev nD) (t : Fin cfg0.N) :
    (dats m 0 c).flushed 10 t = ((cfg0.win 10).blk t).view.read (Elt Ideal) (outOf m c) := by
  rw [Value.flushed10]
  unfold out0_10
  rw [View.canon_unit_zero hz3]
  simp only [View.ld_unit_zero (S := S16x128x256) hz3, View.ld_unit_zero (S := S16x128x128) hz3,
    View.ld_unit_zero (S := S256x256) hz2, View.ld_unit_zero (S := S256x512) hz2,
    View.ld_unit_zero (S := S256) hz1, View.ld_unit_zero (S := S512) hz1]
  funext y
  exact out_point m c t y

/-! ## The blocks cover the arrays -/

/-- An index of the attention array is in point t's block iff each coordinate is in the block's range. -/
theorem mem_blk11 (t : Fin cfg0.N) (i : S1024x128x128.Idx) :
    i ∈ ((cfg0.win 11).blk t).view.set ↔ ∀ a : Fin 3, win0_11.index t a * S16x128x128.size a ≤ (i a).val
      ∧ (i a).val < win0_11.index t a * S16x128x128.size a + S16x128x128.size a := by
  show i ∈ ((View.whole main_v0_1).slice (win0_11.rect t)).set ↔ _
  rw [View.set_slice_whole, Rect.mem_set_unit]
  exact Iff.rfl

theorem mem_blk10 (t : Fin cfg0.N) (i : S1024x128x256.Idx) :
    i ∈ ((cfg0.win 10).blk t).view.set ↔ ∀ a : Fin 3, win0_10.index t a * S16x128x256.size a ≤ (i a).val
      ∧ (i a).val < win0_10.index t a * S16x128x256.size a + S16x128x256.size a := by
  show i ∈ ((View.whole main_v0_0).slice (win0_10.rect t)).set ↔ _
  rw [View.set_slice_whole, Rect.mem_set_unit]
  exact Iff.rfl

/-- Batch row b of the attention array is written back by point b / 16. -/
theorem cover11 (i : S1024x128x128.Idx) :
    ∃ t : Fin cfg0.N, (cfg0.win 11).flush t = true ∧ i ∈ ((cfg0.win 11).blk t).view.set := by
  have hi0 : (i 0).val < 1024 := (i 0).isLt
  have hi1 : (i 1).val < 128 := (i 1).isLt
  have hi2 : (i 2).val < 128 := (i 2).isLt
  have ht : (i 0).val / 16 < cfg0.N := by rw [show cfg0.N = 64 from N_0]; omega
  obtain ⟨e0_0, e0_1, e0_2, e1_0, e1_1, e1_2, e2_0, e2_1, e3_0, e4_0, e4_1, e5_0, e6_0, e6_1, e7_0, e8_0, e8_1, e9_0, e10_0, e10_1, e10_2, e11_0, e11_1, e11_2⟩ := idx_facts ⟨(i 0).val / 16, ht⟩
  refine ⟨⟨(i 0).val / 16, ht⟩, flush0_11 _, ?_⟩
  rw [mem_blk11]
  intro a
  match a with
  | ⟨0, _⟩ =>
    show win0_11.index ⟨(i 0).val / 16, ht⟩ (0 : Fin 3) * 16 ≤ (i 0).val ∧ (i 0).val < win0_11.index ⟨(i 0).val / 16, ht⟩ (0 : Fin 3) * 16 + 16
    rw [e11_0]; show (i 0).val / 16 * 16 ≤ (i 0).val ∧ (i 0).val < (i 0).val / 16 * 16 + 16; omega
  | ⟨1, _⟩ =>
    show win0_11.index ⟨(i 0).val / 16, ht⟩ (1 : Fin 3) * 128 ≤ (i 1).val ∧ (i 1).val < win0_11.index ⟨(i 0).val / 16, ht⟩ (1 : Fin 3) * 128 + 128
    omega
  | ⟨2, _⟩ =>
    show win0_11.index ⟨(i 0).val / 16, ht⟩ (2 : Fin 3) * 128 ≤ (i 2).val ∧ (i 2).val < win0_11.index ⟨(i 0).val / 16, ht⟩ (2 : Fin 3) * 128 + 128
    omega

/-- Batch row b of the output array is written back by point b / 16. -/
theorem cover10 (i : S1024x128x256.Idx) :
    ∃ t : Fin cfg0.N, (cfg0.win 10).flush t = true ∧ i ∈ ((cfg0.win 10).blk t).view.set := by
  have hi0 : (i 0).val < 1024 := (i 0).isLt
  have hi1 : (i 1).val < 128 := (i 1).isLt
  have hi2 : (i 2).val < 256 := (i 2).isLt
  have ht : (i 0).val / 16 < cfg0.N := by rw [show cfg0.N = 64 from N_0]; omega
  obtain ⟨e0_0, e0_1, e0_2, e1_0, e1_1, e1_2, e2_0, e2_1, e3_0, e4_0, e4_1, e5_0, e6_0, e6_1, e7_0, e8_0, e8_1, e9_0, e10_0, e10_1, e10_2, e11_0, e11_1, e11_2⟩ := idx_facts ⟨(i 0).val / 16, ht⟩
  refine ⟨⟨(i 0).val / 16, ht⟩, flush0_10 _, ?_⟩
  rw [mem_blk10]
  intro a
  match a with
  | ⟨0, _⟩ =>
    show win0_10.index ⟨(i 0).val / 16, ht⟩ (0 : Fin 3) * 16 ≤ (i 0).val ∧ (i 0).val < win0_10.index ⟨(i 0).val / 16, ht⟩ (0 : Fin 3) * 16 + 16
    rw [e10_0]; show (i 0).val / 16 * 16 ≤ (i 0).val ∧ (i 0).val < (i 0).val / 16 * 16 + 16; omega
  | ⟨1, _⟩ =>
    show win0_10.index ⟨(i 0).val / 16, ht⟩ (1 : Fin 3) * 128 ≤ (i 1).val ∧ (i 1).val < win0_10.index ⟨(i 0).val / 16, ht⟩ (1 : Fin 3) * 128 + 128
    omega
  | ⟨2, _⟩ =>
    show win0_10.index ⟨(i 0).val / 16, ht⟩ (2 : Fin 3) * 256 ≤ (i 2).val ∧ (i 2).val < win0_10.index ⟨(i 0).val / 16, ht⟩ (2 : Fin 3) * 256 + 256
    omega

/-! ## The arrays after the run, and the run -/

theorem final11 (c : Dev nD) : (dats m 0 c).arrAt 11 cfg0.N = attOf m c :=
  (dats m 0 c).arrAt_eq_of_cover 11 (attOf m c) (fun t _ => flushed11_eq m c t) (fun i => cover11 i)

theorem final10 (c : Dev nD) : (dats m 0 c).arrAt 10 cfg0.N = outOf m c :=
  (dats m 0 c).arrAt_eq_of_cover 10 (outOf m c) (fun t _ => flushed10_eq m c t) (fun i => cover10 i)

/-- The kernel's run: both result arrays end at the specification's arrays of the arguments, and the arguments
    end unchanged. -/
theorem run : θ_run defs (onTc (τ := τ) (main (F := Ideal))) ⟨m, fun _ => 0, ρ⟩ fun r => ∀ c : Dev nD,
      r.2.mem ((c : Thread nD τ).loc main_v0_0) = outOf m c
      ∧ r.2.mem ((c : Thread nD τ).loc main_v0_1) = attOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (Value.run_blocks m ρ)

end Cert.KernelArray

end
-- ==== Proof.lean ====
/-
  A fused masked-attention kernel against its jnp reference, over the extended reals.

  For every batch row (1024 of them; 128 rows of 256 features each, a 128 × 128 mask) both programs compute
    v = relu (x·Wv + bv),  q = relu (x·Wq + bq),  k = relu (x·Wk + bk),
    logits = (q·kᵀ) ⊙ mask − 1000 · (1 − mask),
    att = softmax of the logits along each row (maximum folded from −∞, exponentials, their sum, the quotient),
    out = relu ((att·v)·Wo + bo),
  and return (out, att). The kernel does so 16 batch rows at a time over a grid of 64 points, flattening
  each block to 2048 rows for the projections and narrowing its matrix operands to bf16 — the identity at
  the ideal values; the reference does so on the whole arrays. Operation for operation the two are the same
  function (Proof/AttnSpec.lean): nothing is rearranged, so no law of the extended reals beyond reading a
  matrix product and a reduction as a sum or a fold is used, and the inputs' finiteness is never opened.

  The reference computes the specification: Proof/RefBridge.lean, over the generated reading of its run.
  The kernel body computes it on each block: Proof/KernelOps.lean and Proof/KernelPayload.lean; the blocks
  tile the result arrays: Proof/KernelArray.lean, over the generated frame run. The frames of the two
  kernel programs are the generated ones; the reference's frame is its generated run with the results
  dropped; the idealization rewrote no operation, so what it preserves is trivial.
-/
import proofs.«114450_j47141561040904_1_alg».proof.Defs
import proofs.«114450_j47141561040904_1_alg».proof.Proof.Gen.Kernel
import proofs.«114450_j47141561040904_1_alg».proof.Proof.Gen.Kernel.Skeleton
import proofs.«114450_j47141561040904_1_alg».proof.Proof.Gen.Kernel.Launch
import proofs.«114450_j47141561040904_1_alg».proof.Proof.Gen.Kernel.Points
import proofs.«114450_j47141561040904_1_alg».proof.Proof.Gen.Kernel.Frame
import proofs.«114450_j47141561040904_1_alg».proof.Proof.Gen.KernelIdeal
import proofs.«114450_j47141561040904_1_alg».proof.Proof.Gen.KernelIdeal.Skeleton
import proofs.«114450_j47141561040904_1_alg».proof.Proof.Gen.KernelIdeal.Launch
import proofs.«114450_j47141561040904_1_alg».proof.Proof.Gen.KernelIdeal.Points
import proofs.«114450_j47141561040904_1_alg».proof.Proof.Gen.KernelIdeal.Frame
import proofs.«114450_j47141561040904_1_alg».proof.Proof.Gen.ReferenceIdeal
import proofs.«114450_j47141561040904_1_alg».proof.Proof.Gen.KernelIdeal.Value
import proofs.«114450_j47141561040904_1_alg».proof.Proof.Gen.ReferenceIdeal.Run
import proofs.«114450_j47141561040904_1_alg».proof.Proof.Gen.ReferenceIdeal.Read
import proofs.«114450_j47141561040904_1_alg».proof.Proof.Gen.Pre_finite_inputs
import proofs.«114450_j47141561040904_1_alg».proof.Proof.RefBridge
import proofs.«114450_j47141561040904_1_alg».proof.Proof.KernelArray
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- From memories agreeing on the arguments, both programs end with the specification's output and attention
    arrays of those arguments. -/
theorem algebraic : Cert.algebraic_KernelIdeal_ReferenceIdeal := by
  intro m ρ m' ρ' _ hagree
  refine ⟨fun c => Cert.KernelArray.outOf m c, fun c => Cert.KernelArray.attOf m c, Cert.KernelArray.run m ρ, ?_⟩
  refine (θ_run Cert.ReferenceIdeal.defs _ _).mono (fun r h c => ?_)
    (Cert.ReferenceIdeal.Value.run (F := Ideal) m' ρ')
  obtain ⟨a0, a1, a2, a3, a4, a5, a6, a7, a8, a9⟩ := hagree c
  refine ⟨(h c).1.trans ?_, (h c).2.1.trans ?_, (h c).2.2⟩
  · rw [Cert.ReferenceIdeal.Read.val_main_v38_eq, Cert.RefBridge.ref_out, a0, a1, a2, a3, a4, a5, a6, a7, a8, a9]
  · rw [Cert.ReferenceIdeal.Read.val_main_v32_eq, Cert.RefBridge.ref_att, a0, a1, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
